-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x1 .f32) (main_arg10 : FVec F S1 .f32) (main_arg11 : FVec F S64x1 .f32) (main_arg12 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x1 .f32) (main_arg8 : FVec F S1 .f32) (main_arg9 : FVec F S64x1 .f32) (main_arg10 : FVec F S1 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1000000 32) (main_arg2 : IVec S100000 32) (main_arg3 : FVec F S128x64 .f32) (main_arg4 : FVec F S64 .f32) (main_arg5 : FVec F S64x64 .f32) (main_arg6 : FVec F S64 .f32) (main_arg7 : FVec F S64x1 .f32) (main_arg8 : FVec F S1 .f32) (main_arg9 : FVec F S64x1 .f32) (main_arg10 : FVec F S1 .f32) (main_arg11 : FVec F S64x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1000000 : Shape := ⟨2, ![2, 1000000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S5000x128 : Shape := ⟨2, ![5000, 128]⟩
abbrev S5000x64 : Shape := ⟨2, ![5000, 64]⟩
abbrev S1100000x64 : Shape := ⟨2, ![1100000, 64]⟩
abbrev S1x64 : Shape := ⟨2, ![1, 64]⟩
abbrev S1x1 : Shape := ⟨2, ![1, 1]⟩
abbrev S5000 : Shape := ⟨1, ![5000]⟩
abbrev S5000x1 : Shape := ⟨2, ![5000, 1]⟩
abbrev S2048x64 : Shape := ⟨2, ![2048, 64]⟩
abbrev S100000x1 : Shape := ⟨2, ![100000, 1]⟩
abbrev S2048x1 : Shape := ⟨2, ![2048, 1]⟩
abbrev S2048 : Shape := ⟨1, ![2048]⟩

abbrev nBuf : Space → Nat
  | .hbm => 106
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S64x1, .f32⟩
  | .hbm, ⟨10, _⟩ => ⟨S1, .f32⟩
  | .hbm, ⟨11, _⟩ => ⟨S64x1, .f32⟩
  | .hbm, ⟨12, _⟩ => ⟨S1, .f32⟩
  | .hbm, ⟨13, _⟩ => ⟨S100000, .i32⟩
  | .hbm, ⟨14, _⟩ => ⟨S1x1000000, .i32⟩
  | .hbm, ⟨15, _⟩ => ⟨S1000000, .i32⟩
  | .hbm, ⟨16, _⟩ => ⟨S1100000, .i32⟩
  | .hbm, ⟨17, _⟩ => ⟨S1x1000000, .i32⟩
  | .hbm, ⟨18, _⟩ => ⟨S1000000, .i32⟩
  | .hbm, ⟨19, _⟩ => ⟨S1100000, .i32⟩
  | .hbm, ⟨20, _⟩ => ⟨S_, .f32⟩
  | .hbm, ⟨21, _⟩ => ⟨S1100000, .f32⟩
  | .hbm, ⟨22, _⟩ => ⟨S_, .f32⟩
  | .hbm, ⟨23, _⟩ => ⟨S100000, .f32⟩
  | .hbm, ⟨24, _⟩ => ⟨S1100000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1100000, .i32⟩
  | .hbm, ⟨39, _⟩ => ⟨S1100000, .i1⟩
  | .hbm, ⟨40, _⟩ => ⟨S_, .i32⟩
  | .hbm, ⟨41, _⟩ => ⟨S1100000, .i32⟩
  | .hbm, ⟨42, _⟩ => ⟨S1100000, .i32⟩
  | .hbm, ⟨43, _⟩ => ⟨S1100000, .i32⟩
  | .hbm, ⟨44, _⟩ => ⟨S1100000x1, .i32⟩
  | .hbm, ⟨45, _⟩ => ⟨S1100000, .f32⟩
  | .hbm, ⟨46, _⟩ => ⟨S_, .i32⟩
  | .hbm, ⟨47, _⟩ => ⟨S1100000, .i32⟩
  | .hbm, ⟨48, _⟩ => ⟨S1100000, .i1⟩
  | .hbm, ⟨49, _⟩ => ⟨S_, .i32⟩
  | .hbm, ⟨50, _⟩ => ⟨S1100000, .i32⟩
  | .hbm, ⟨51, _⟩ => ⟨S1100000, .i32⟩
  | .hbm, ⟨52, _⟩ => ⟨S1100000, .i32⟩
  | .hbm, ⟨53, _⟩ => ⟨S1100000x1, .i32⟩
  | .hbm, ⟨54, _⟩ => ⟨S1100000, .f32⟩
  | .hbm, ⟨55, _⟩ => ⟨S1100000, .f32⟩
  | .hbm, ⟨56, _⟩ => ⟨S100000x64, .f32⟩
  | .hbm, ⟨57, _⟩ => ⟨S_, .i32⟩
  | .hbm, ⟨58, _⟩ => ⟨S1100000, .i32⟩
  | .hbm, ⟨59, _⟩ => ⟨S1100000, .i1⟩
  | .hbm, ⟨60, _⟩ => ⟨S_, .i32⟩
  | .hbm, ⟨61, _⟩ => ⟨S1100000, .i32⟩
  | .hbm, ⟨62, _⟩ => ⟨S1100000, .i32⟩
  | .hbm, ⟨63, _⟩ => ⟨S1100000, .i32⟩
  | .hbm, ⟨64, _⟩ => ⟨S1100000x1, .i32⟩
  | .hbm, ⟨65, _⟩ => ⟨S1100000x64, .f32⟩
  | .hbm, ⟨66, _⟩ => ⟨S1100000x1, .f32⟩
  | .hbm, ⟨67, _⟩ => ⟨S1100000x64, .f32⟩
  | .hbm, ⟨68, _⟩ => ⟨S1100000x64, .f32⟩
  | .hbm, ⟨69, _⟩ => ⟨S_, .f32⟩
  | .hbm, ⟨70, _⟩ => ⟨S100000x64, .f32⟩
  | .hbm, ⟨71, _⟩ => ⟨S1100000x1, .i32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1100000, .i32⟩
  | .hbm, ⟨78, _⟩ => ⟨S1100000, .i1⟩
  | .hbm, ⟨79, _⟩ => ⟨S_, .i32⟩
  | .hbm, ⟨80, _⟩ => ⟨S1100000, .i32⟩
  | .hbm, ⟨81, _⟩ => ⟨S1100000, .i32⟩
  | .hbm, ⟨82, _⟩ => ⟨S1100000, .i32⟩
  | .hbm, ⟨83, _⟩ => ⟨S1100000x1, .i32⟩
  | .hbm, ⟨84, _⟩ => ⟨S1100000x64, .f32⟩
  | .hbm, ⟨85, _⟩ => ⟨S1100000x1, .f32⟩
  | .hbm, ⟨86, _⟩ => ⟨S1100000x64, .f32⟩
  | .hbm, ⟨87, _⟩ => ⟨S1100000x64, .f32⟩
  | .hbm, ⟨88, _⟩ => ⟨S_, .f32⟩
  | .hbm, ⟨89, _⟩ => ⟨S100000x64, .f32⟩
  | .hbm, ⟨90, _⟩ => ⟨S1100000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S1x64, .f32⟩
  | .hbm, ⟨95, _⟩ => ⟨S1x64, .f32⟩
  | .hbm, ⟨96, _⟩ => ⟨S1x1, .f32⟩
  | .hbm, ⟨97, _⟩ => ⟨S1x1, .f32⟩
  | .hbm, ⟨98, _⟩ => ⟨S100000x64, .f32⟩
  | .hbm, ⟨99, _⟩ => ⟨S_, .f32⟩
  | .hbm, ⟨100, _⟩ => ⟨S2048x64, .f32⟩
  | .hbm, ⟨101, _⟩ => ⟨S100000x1, .i32⟩
  | .hbm, ⟨102, _⟩ => ⟨S2048x64, .f32⟩
  | .hbm, ⟨103, _⟩ => ⟨S1x64, .f32⟩
  | .hbm, ⟨104, _⟩ => ⟨S1x1, .f32⟩
  | .hbm, ⟨105, _⟩ => ⟨S2048x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S1x1, .f32⟩
  | .local _ .vmem, ⟨24, _⟩ => ⟨S1x64, .f32⟩
  | .local _ .vmem, ⟨25, _⟩ => ⟨S1x1, .f32⟩
  | .local _ .vmem, ⟨26, _⟩ => ⟨S5000x64, .f32⟩
  | .local _ .vmem, ⟨27, _⟩ => ⟨S5000x64, .f32⟩
  | .local _ .vmem, ⟨28, _⟩ => ⟨S2048x64, .f32⟩
  | .local _ .vmem, ⟨29, _⟩ => ⟨S1x64, .f32⟩
  | .local _ .vmem, ⟨30, _⟩ => ⟨S1x1, .f32⟩
  | .local _ .vmem, ⟨31, _⟩ => ⟨S2048x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg5_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem5_1 : DmaSem sig := 27
abbrev cc5_sem0_0 : DmaSem sig := 28
abbrev cc5_sem1_0 : DmaSem sig := 29
abbrev cc5_sem2_0 : DmaSem sig := 30
abbrev cc5_sem3_0 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S2048x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2048x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x1_S1x64 : S64x1.ShapeCasts S1x64
  shapeCasts_S1_S1x1 : S1.ShapeCasts S1x1
  reduces_S5000x64_S5000 : S5000x64.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  broadcasts_S5000x1_S5000x64 : S5000x1.Broadcasts S5000x64
  bcast_S_S2048x64 : S_.BroadcastsInDim S2048x64 (![] : Fin 0 → Fin S2048x64.rank)
  bcast_S100000_S100000x1_0 : S100000.BroadcastsInDim S100000x1 (![0] : Fin 1 → Fin S100000x1.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S1x64_S2048x64 : S1x64.Broadcasts S2048x64
  reduces_S2048x64_S2048 : S2048x64.Reduces [1] S2048
  shapeCasts_S2048_S2048x1 : S2048.ShapeCasts S2048x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x128_S128x64_S5000x64_1_0_0_1_n_n_wf : DotDims.WF S5000x128 S128x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x64_S5000x64_1_0_0_1_n_n_wf : DotDims.WF S5000x64 S64x64 S5000x64 [1] [0] [0] [1] [] []
  scatter_S2048x64_S100000x1_S100000x64_1_0_0_1_wf : ScatterDims.WF S2048x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S2048x64.size a ≤ S2048x64.size a
  hwx5_0 : ∀ i : grid5.Coords, EltTy.bits .f32 = 32 ∨ (Rect.block (s := S2048x64) S2048x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2048x1.size a ≤ S2048x1.size a
  hwx5_3 : ∀ i : grid5.Coords, EltTy.bits .f32 = 32 ∨ (Rect.block (s := S2048x1) S2048x1.size (cc5_transform_3 i) (hinb5_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v71) S2048x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v72) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S2048x1.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
abbrev S1x64 : Shape := ⟨2, ![1, 64]⟩
abbrev S100000x1 : Shape := ⟨2, ![100000, 1]⟩
abbrev S1x1 : Shape := ⟨2, ![1, 1]⟩
abbrev S2048x64 : Shape := ⟨2, ![2048, 64]⟩
abbrev S2048x1 : Shape := ⟨2, ![2048, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1000000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S64x1, .f32⟩
  | 10 => ⟨S1, .f32⟩
  | 11 => ⟨S64x1, .f32⟩
  | 12 => ⟨S1, .f32⟩
  | 13 => ⟨S100000, .i32⟩
  | 14 => ⟨S1x1000000, .i32⟩
  | 15 => ⟨S1000000, .i32⟩
  | 16 => ⟨S1100000, .i32⟩
  | 17 => ⟨S1x1000000, .i32⟩
  | 18 => ⟨S1000000, .i32⟩
  | 19 => ⟨S1100000, .i32⟩
  | 20 => ⟨S_, .f32⟩
  | 21 => ⟨S1100000, .f32⟩
  | 22 => ⟨S_, .f32⟩
  | 23 => ⟨S100000, .f32⟩
  | 24 => ⟨S1100000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1100000, .i32⟩
  | 39 => ⟨S1100000, .i1⟩
  | 40 => ⟨S_, .i32⟩
  | 41 => ⟨S1100000, .i32⟩
  | 42 => ⟨S1100000, .i32⟩
  | 43 => ⟨S1100000, .i32⟩
  | 44 => ⟨S1100000x1, .i32⟩
  | 45 => ⟨S1100000, .f32⟩
  | 46 => ⟨S_, .i32⟩
  | 47 => ⟨S1100000, .i32⟩
  | 48 => ⟨S1100000, .i1⟩
  | 49 => ⟨S_, .i32⟩
  | 50 => ⟨S1100000, .i32⟩
  | 51 => ⟨S1100000, .i32⟩
  | 52 => ⟨S1100000, .i32⟩
  | 53 => ⟨S1100000x1, .i32⟩
  | 54 => ⟨S1100000, .f32⟩
  | 55 => ⟨S1100000, .f32⟩
  | 56 => ⟨S100000x64, .f32⟩
  | 57 => ⟨S_, .i32⟩
  | 58 => ⟨S1100000, .i32⟩
  | 59 => ⟨S1100000, .i1⟩
  | 60 => ⟨S_, .i32⟩
  | 61 => ⟨S1100000, .i32⟩
  | 62 => ⟨S1100000, .i32⟩
  | 63 => ⟨S1100000, .i32⟩
  | 64 => ⟨S1100000x1, .i32⟩
  | 65 => ⟨S1100000x64, .f32⟩
  | 66 => ⟨S1100000x1, .f32⟩
  | 67 => ⟨S1100000x64, .f32⟩
  | 68 => ⟨S1100000x64, .f32⟩
  | 69 => ⟨S_, .f32⟩
  | 70 => ⟨S100000x64, .f32⟩
  | 71 => ⟨S1100000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .i32⟩
  | 81 => ⟨S1100000, .i32⟩
  | 82 => ⟨S1100000, .i1⟩
  | 83 => ⟨S_, .i32⟩
  | 84 => ⟨S1100000, .i32⟩
  | 85 => ⟨S1100000, .i32⟩
  | 86 => ⟨S1100000, .i32⟩
  | 87 => ⟨S1100000x1, .i32⟩
  | 88 => ⟨S1100000x64, .f32⟩
  | 89 => ⟨S1100000x1, .f32⟩
  | 90 => ⟨S1100000x64, .f32⟩
  | 91 => ⟨S1100000x64, .f32⟩
  | 92 => ⟨S_, .f32⟩
  | 93 => ⟨S100000x64, .f32⟩
  | 94 => ⟨S1100000x1, .i32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x1, .f32⟩
  | 103 => ⟨S1x1, .f32⟩
  | 104 => ⟨S100000x1, .f32⟩
  | 105 => ⟨S100000x1, .f32⟩
  | 106 => ⟨S100000x1, .f32⟩
  | 107 => ⟨S1x1, .f32⟩
  | 108 => ⟨S100000x1, .f32⟩
  | 109 => ⟨S100000x1, .f32⟩
  | 110 => ⟨S100000x1, .f32⟩
  | 111 => ⟨S100000x1, .f32⟩
  | 112 => ⟨S_, .f32⟩
  | 113 => ⟨S100000x1, .f32⟩
  | 114 => ⟨S100000x1, .f32⟩
  | 115 => ⟨S_, .f32⟩
  | 116 => ⟨S100000x1, .f32⟩
  | 117 => ⟨S100000x1, .f32⟩
  | 118 => ⟨S100000x1, .f32⟩
  | 119 => ⟨S100000x64, .f32⟩
  | 120 => ⟨S100000x64, .f32⟩
  | 121 => ⟨S_, .f32⟩
  | 122 => ⟨S2048x64, .f32⟩
  | 123 => ⟨S100000x1, .i32⟩
  | 124 => ⟨S2048x64, .f32⟩
  | 125 => ⟨S2048x1, .f32⟩
  | 126 => ⟨S1x1, .f32⟩
  | 127 => ⟨S2048x1, .f32⟩
  | _ => ⟨S100000x128, .f32⟩

abbrev hbmTy0_1 (i : Nat) : BufTy := match i % 128 with
  | 0 => ⟨S2048x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_cst : Ref sig .tc := ⟨.hbm, 99, rfl⟩
abbrev main_call2_v0 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_13 : Ref sig .tc := ⟨.hbm, 112, rfl⟩
abbrev main_v78 : Ref sig .tc := ⟨.hbm, 113, rfl⟩
abbrev main_v79 : Ref sig .tc := ⟨.hbm, 114, rfl⟩
abbrev main_cst_14 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S1x1_S2048x1_0_1 : S1x1.BroadcastsInDim S2048x1 (![0, 1] : Fin 2 → Fin S2048x1.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  scatter_S2048x64_S100000x1_S100000x64_1_0_0_1_wf : ScatterDims.WF S2048x64 S100000x1 S100000x64 [1] [0] [0] 1
  dot_S2048x64_S64x1_S2048x1_1_0_0_1_n_n_wf : DotDims.WF S2048x64 S64x1 S2048x1 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

class Facts : Prop extends Facts₀ where

variable [Facts]
-- ==== Proof.MainRun.lean ====
/-
  The idealized kernel's whole run, with every buffer named.

  The program is six tiled regions among stretches of host operations.  Its run leaves every
  unscoped buffer of a core at the contents obtained by folding the stretches and the regions'
  write-backs over the launch memory, one boundary after another (the valuations W0 … W13).  Here
  that fact is stated for all buffers at once, and then for the result buffer together with the
  thirteen argument arrays, which no stretch and no region overwrites.
-/
import proofs.«176435_j26233660244215_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with each unscoped buffer of each core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The same run, read at the result buffer and at the argument arrays: the result ends at the last boundary's
    contents of its buffer, each argument as launched. -/
theorem run_result : θ_run defs (onTc (τ := τ) (main (F := F))) ⟨m, fun _ => 0, ρ⟩ (fun r => ∀ c : Dev nD,
      r.2.mem ((c.tc : Thread nD τ).loc main_v74) = W13 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v74 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c),
     (h c _ (mem_uc main_arg12 (by decide))).trans (W13_main_arg12 m ρ c)⟩)
    (run_all m ρ)

end Cert.KernelIdeal.Whole

end
-- ==== Proof.KStay.lean ====
/-
  Buffers that a stretch of the run leaves alone.

  The run alternates stretches of host operations with tiled regions.  A host operation writes only its own
  result buffer, and a region writes only the arrays behind its windows.  So an argument array, or a buffer
  computed once at the start (the edges' endpoints and weights), still holds at a later boundary what it held
  at an earlier one: each lemma below walks one buffer back across the boundaries, one stretch or region at a
  time, checking that none of them writes it.
-/
import proofs.«176435_j26233660244215_1_alg».proof.Proof.Gen.KernelIdeal.Frame

set_option maxRecDepth 16384

noncomputable section

namespace Cert.KernelIdeal.Stay

open Cert.KernelIdeal Cert.KernelIdeal.Gen Idealize.ShloMosaic Idealize.ShloMosaic.TcCoe Idealize.SL.Sem

/-- No operation of the named stretch writes the buffer in the goal, so the stretch leaves it as it was. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg)

theorem keep_main_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0

theorem keep_main_arg3_3_0 (c : Dev nD) : W3 m ρ c (Proc.devRef .tc main_arg3) = W0 m ρ c (Proc.devRef .tc main_arg3) :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0

theorem keep_main_v3_4_3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_main_v6_4_3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_main_v31_4_3 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

theorem keep_main_v3_7_3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)

theorem keep_main_v6_7_3 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

theorem keep_main_v31_7_3 (c : Dev nD) : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by host_keeps hostOps1
    _ = W3 m ρ c (Proc.devRef .tc main_v31) := W4_of_ne m ρ c main_v31 (by decide)

theorem keep_main_arg4_4_0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0

theorem keep_main_arg5_6_0 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0

theorem keep_main_arg6_7_0 (c : Dev nD) : W7 m ρ c (Proc.devRef .tc main_arg6) = W0 m ρ c (Proc.devRef .tc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0

theorem keep_main_arg7_9_0 (c : Dev nD) : W9 m ρ c (Proc.devRef .tc main_arg7) = W0 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := by host_keeps hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0

theorem keep_main_arg8_9_0 (c : Dev nD) : W9 m ρ c (Proc.devRef .tc main_arg8) = W0 m ρ c (Proc.devRef .tc main_arg8) :=
  calc W9 m ρ c (Proc.devRef .tc main_arg8)
    _ = W8 m ρ c (Proc.devRef .tc main_arg8) := W9_of_ne m ρ c main_arg8 (by decide)
    _ = W7 m ρ c (Proc.devRef .tc main_arg8) := by host_keeps hostOps3
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0

theorem keep_main_arg9_9_0 (c : Dev nD) : W9 m ρ c (Proc.devRef .tc main_arg9) = W0 m ρ c (Proc.devRef .tc main_arg9) :=
  calc W9 m ρ c (Proc.devRef .tc main_arg9)
    _ = W8 m ρ c (Proc.devRef .tc main_arg9) := W9_of_ne m ρ c main_arg9 (by decide)
    _ = W7 m ρ c (Proc.devRef .tc main_arg9) := by host_keeps hostOps3
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0

theorem keep_main_arg10_9_0 (c : Dev nD) : W9 m ρ c (Proc.devRef .tc main_arg10) = W0 m ρ c (Proc.devRef .tc main_arg10) :=
  calc W9 m ρ c (Proc.devRef .tc main_arg10)
    _ = W8 m ρ c (Proc.devRef .tc main_arg10) := W9_of_ne m ρ c main_arg10 (by decide)
    _ = W7 m ρ c (Proc.devRef .tc main_arg10) := by host_keeps hostOps3
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by host_keeps hostOps1
    _ = W3 m ρ c (Proc.devRef .tc main_arg10) := W4_of_ne m ρ c main_arg10 (by decide)
    _ = W2 m ρ c (Proc.devRef .tc main_arg10) := by host_keeps hostOps0_2
    _ = W1 m ρ c (Proc.devRef .tc main_arg10) := by host_keeps hostOps0_1
    _ = W0 m ρ c (Proc.devRef .tc main_arg10) := by host_keeps hostOps0

theorem keep_main_v63_10_9 (c : Dev nD) : W10 m ρ c (Proc.devRef .tc main_v63) = W9 m ρ c (Proc.devRef .tc main_v63) :=
  calc W10 m ρ c (Proc.devRef .tc main_v63)
    _ = W9 m ρ c (Proc.devRef .tc main_v63) := by host_keeps hostOps4

theorem keep_main_arg2_11_0 (c : Dev nD) : W11 m ρ c (Proc.devRef .tc main_arg2) = W0 m ρ c (Proc.devRef .tc main_arg2) :=
  calc W11 m ρ c (Proc.devRef .tc main_arg2)
    _ = W10 m ρ c (Proc.devRef .tc main_arg2) := W11_of_ne m ρ c main_arg2 (by decide)
    _ = W9 m ρ c (Proc.devRef .tc main_arg2) := by host_keeps hostOps4
    _ = W8 m ρ c (Proc.devRef .tc main_arg2) := W9_of_ne m ρ c main_arg2 (by decide)
    _ = W7 m ρ c (Proc.devRef .tc main_arg2) := by host_keeps hostOps3
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := by host_keeps hostOps1
    _ = W3 m ρ c (Proc.devRef .tc main_arg2) := W4_of_ne m ρ c main_arg2 (by decide)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0

theorem keep_main_arg11_11_0 (c : Dev nD) : W11 m ρ c (Proc.devRef .tc main_arg11) = W0 m ρ c (Proc.devRef .tc main_arg11) :=
  calc W11 m ρ c (Proc.devRef .tc main_arg11)
    _ = W10 m ρ c (Proc.devRef .tc main_arg11) := W11_of_ne m ρ c main_arg11 (by decide)
    _ = W9 m ρ c (Proc.devRef .tc main_arg11) := by host_keeps hostOps4
    _ = W8 m ρ c (Proc.devRef .tc main_arg11) := W9_of_ne m ρ c main_arg11 (by decide)
    _ = W7 m ρ c (Proc.devRef .tc main_arg11) := by host_keeps hostOps3
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by host_keeps hostOps1
    _ = W3 m ρ c (Proc.devRef .tc main_arg11) := W4_of_ne m ρ c main_arg11 (by decide)
    _ = W2 m ρ c (Proc.devRef .tc main_arg11) := by host_keeps hostOps0_2
    _ = W1 m ρ c (Proc.devRef .tc main_arg11) := by host_keeps hostOps0_1
    _ = W0 m ρ c (Proc.devRef .tc main_arg11) := by host_keeps hostOps0

theorem keep_main_arg12_11_0 (c : Dev nD) : W11 m ρ c (Proc.devRef .tc main_arg12) = W0 m ρ c (Proc.devRef .tc main_arg12) :=
  calc W11 m ρ c (Proc.devRef .tc main_arg12)
    _ = W10 m ρ c (Proc.devRef .tc main_arg12) := W11_of_ne m ρ c main_arg12 (by decide)
    _ = W9 m ρ c (Proc.devRef .tc main_arg12) := by host_keeps hostOps4
    _ = W8 m ρ c (Proc.devRef .tc main_arg12) := W9_of_ne m ρ c main_arg12 (by decide)
    _ = W7 m ρ c (Proc.devRef .tc main_arg12) := by host_keeps hostOps3
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := by host_keeps hostOps1
    _ = W3 m ρ c (Proc.devRef .tc main_arg12) := W4_of_ne m ρ c main_arg12 (by decide)
    _ = W2 m ρ c (Proc.devRef .tc main_arg12) := by host_keeps hostOps0_2
    _ = W1 m ρ c (Proc.devRef .tc main_arg12) := by host_keeps hostOps0_1
    _ = W0 m ρ c (Proc.devRef .tc main_arg12) := by host_keeps hostOps0

end Cert.KernelIdeal.Stay

end
-- ==== Proof.Stages.lean ====
/-
  The graph network, stage by stage, as functions of whole arrays.

  Nodes carry feature rows; the edge list (with one self loop per node appended) gives for every edge a source
  row and a target row.  A node's degree counts the edges that arrive at it; an edge's weight is the product of
  the inverse square roots of its endpoints' degrees.  One layer multiplies the node features by a weight matrix,
  sends each edge's weighted source row to its target (a scatter-sum), adds a bias and clamps at zero.  After two
  layers each node's row is scaled by its score — an affine form of the row times the logistic of another — the
  scaled rows are summed per graph, and each graph's row is projected to one number plus a bias.

  Every function below is the corresponding host operations of the reference program applied to its operands,
  so that the reference's result is their composition by unfolding, and the tiled kernels can be compared with
  the dense stages one at a time.
-/
import proofs.«176435_j26233660244215_1_alg».proof.Proof.Gen.ReferenceIdeal

noncomputable section

namespace Cert.ReferenceIdeal.Stages

open Cert.ReferenceIdeal Cert.ReferenceIdeal.Gen Idealize.ShloMosaic

variable {F : FTy → Type} [FloatOps F]

/-- The contents of a buffer of shape `S` and element type `e`. -/
abbrev Arr (F : FTy → Type) (S : Shape) (e : EltTy) : Type := (⟨S, e⟩ : BufTy).Contents (Elt F)

/-- Row `r` of the 2×E edge list with the self loops 0 … N-1 appended. -/
def endpoints (r : Fin 2) (e : Arr F S2x1000000 .i32) : Arr F S1100000 .i32 :=
  match r with
  | 0 => concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0
  | 1 => concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0

/-- Source node of every edge. -/
abbrev src (e : Arr F S2x1000000 .i32) : Arr F S1100000 .i32 := endpoints 0 e
/-- Target node of every edge. -/
abbrev tgt (e : Arr F S2x1000000 .i32) : Arr F S1100000 .i32 := endpoints 1 e

/-- A negative node index counts from the end: add N to it. As an index column. -/
def column (i : Arr F S1100000 .i32) : Arr F S1100000x1 .i32 :=
  broadcastInDim S1100000x1 ![0] bcast_S1100000_S1100000x1_0
    (select (cmpi .slt i (broadcastInDim S1100000 ![] bcast_S_S1100000 (constantI S_ 32 0#32)))
      (addi i (broadcastInDim S1100000 ![] bcast_S_S1100000 (constantI S_ 32 100000#32))) i)

/-- The number of edges arriving at each node. -/
def degree (e : Arr F S2x1000000 .i32) : Arr F S100000 .f32 :=
  Host.scatterAdd scatter_S100000_S1100000x1_S1100000_n_0_0_1
    (broadcastInDim S100000 ![] bcast_S_S100000 (constant S_ .f32 0x00000000#32))
    (broadcastInDim S1100000x1 ![0] bcast_S1100000_S1100000x1_0 (tgt e))
    (broadcastInDim S1100000 ![] bcast_S_S1100000 (constant S_ .f32 0x3F800000#32))

/-- A node's inverse square root of its degree (clamped from below), zero where the degree is not positive. -/
def invSqrtDegree (e : Arr F S2x1000000 .i32) : Arr F S100000 .f32 :=
  select (cmpf .ogt (degree e) (broadcastInDim S100000 ![] bcast_S_S100000 (constant S_ .f32 0x00000000#32)))
    (Host.rsqrt (maximumf (degree e) (broadcastInDim S100000 ![] bcast_S_S100000 (constant S_ .f32 0x2B8CBCCC#32))))
    (broadcastInDim S100000 ![] bcast_S_S100000 (id (constant S_ .f32 0x00000000#32)))

/-- An edge's weight: the product of its endpoints' inverse square roots of degree. -/
def edgeWeight (e : Arr F S2x1000000 .i32) : Arr F S1100000 .f32 :=
  mulf (Host.gather gather_S100000_S1100000x1_S1100000_n_0_n_n_0_1_1 (invSqrtDegree e) (column (src e)))
    (Host.gather gather_S100000_S1100000x1_S1100000_n_0_n_n_0_1_1 (invSqrtDegree e) (column (tgt e)))

/-- Message passing: each edge carries its weighted source row to its target node, where the rows are summed. -/
def aggregate (e : Arr F S2x1000000 .i32) (h : Arr F S100000x64 .f32) : Arr F S100000x64 .f32 :=
  Host.scatterAdd scatter_S100000x64_S1100000x1_S1100000x64_1_0_0_1
    (broadcastInDim S100000x64 ![] bcast_S_S100000x64 (constant S_ .f32 0x00000000#32))
    (broadcastInDim S1100000x1 ![0] bcast_S1100000_S1100000x1_0 (tgt e))
    (mulf (Host.gather gather_S100000x64_S1100000x1_S1100000x64_1_0_n_n_0_1_164 h (column (src e)))
      (broadcastInDim S1100000x64 ![0, 1] bcast_S1100000x1_S1100000x64_0_1
        (broadcastInDim S1100000x1 ![0] bcast_S1100000_S1100000x1_0 (edgeWeight e))))

/-- Add the bias row to every node's row and clamp at zero. -/
def biasRelu (a : Arr F S100000x64 .f32) (b : Arr F S64 .f32) : Arr F S100000x64 .f32 :=
  maximumf
    (addf a (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The first layer's projection of the input features. -/
def project1 (x : Arr F S100000x128 .f32) (w : Arr F S128x64 .f32) : Arr F S100000x64 .f32 :=
  Host.dotGeneral dot_S100000x128_S128x64_S100000x64_1_0_0_1_n_n none x w

/-- The second layer's projection. -/
def project2 (h : Arr F S100000x64 .f32) (w : Arr F S64x64 .f32) : Arr F S100000x64 .f32 :=
  Host.dotGeneral dot_S100000x64_S64x64_S100000x64_1_0_0_1_n_n none h w

/-- A node's affine score: its row against a weight column, plus a bias. -/
def affine (h : Arr F S100000x64 .f32) (w : Arr F S64x1 .f32) (b : Arr F S1 .f32) : Arr F S100000x1 .f32 :=
  addf (Host.dotGeneral dot_S100000x64_S64x1_S100000x1_1_0_0_1_n_n none h w)
    (broadcastInDim S100000x1 ![0, 1] bcast_S1x1_S100000x1_0_1 (broadcastInDim S1x1 ![1] bcast_S1_S1x1_1 b))

/-- Each node's row scaled by (attention score) · logistic(mask score), the logistic spelt 1 / (1 + exp (−s)). -/
def gated (h : Arr F S100000x64 .f32) (aw : Arr F S64x1 .f32) (ab : Arr F S1 .f32) (mw : Arr F S64x1 .f32) (mb : Arr F S1 .f32) :
    Arr F S100000x64 .f32 :=
  mulf h (broadcastInDim S100000x64 ![0, 1] bcast_S100000x1_S100000x64_0_1
    (mulf (affine h aw ab)
      (Host.divf (broadcastInDim S100000x1 ![] bcast_S_S100000x1 (constant S_ .f32 0x3F800000#32))
        (addf (broadcastInDim S100000x1 ![] bcast_S_S100000x1 (constant S_ .f32 0x3F800000#32))
          (Host.exp (Host.negf (affine h mw mb)))))))

/-- The scaled rows summed per graph. -/
def pooled (g : Arr F S100000 .i32) (v : Arr F S100000x64 .f32) : Arr F S2048x64 .f32 :=
  Host.scatterAdd scatter_S2048x64_S100000x1_S100000x64_1_0_0_1
    (broadcastInDim S2048x64 ![] bcast_S_S2048x64 (constant S_ .f32 0x00000000#32))
    (broadcastInDim S100000x1 ![0] bcast_S100000_S100000x1_0 g) v

/-- Each graph's row against the output column, plus the output bias. -/
def readout (p : Arr F S2048x64 .f32) (w : Arr F S64x1 .f32) (b : Arr F S1 .f32) : Arr F S2048x1 .f32 :=
  addf (Host.dotGeneral dot_S2048x64_S64x1_S2048x1_1_0_0_1_n_n none p w)
    (broadcastInDim S2048x1 ![0, 1] bcast_S1x1_S2048x1_0_1 (broadcastInDim S1x1 ![1] bcast_S1_S1x1_1 b))

/-- The whole network: two layers, the gated pooling, the read-out. -/
def network (x : Arr F S100000x128 .f32) (e : Arr F S2x1000000 .i32) (g : Arr F S100000 .i32)
    (w1 : Arr F S128x64 .f32) (b1 : Arr F S64 .f32) (w2 : Arr F S64x64 .f32) (b2 : Arr F S64 .f32)
    (aw : Arr F S64x1 .f32) (ab : Arr F S1 .f32) (mw : Arr F S64x1 .f32) (mb : Arr F S1 .f32)
    (ow : Arr F S64x1 .f32) (ob : Arr F S1 .f32) : Arr F S2048x1 .f32 :=
  readout (pooled g (gated (biasRelu (aggregate e (project2 (biasRelu (aggregate e (project1 x w1)) b1) w2)) b2) aw ab mw mb)) ow ob

end Cert.ReferenceIdeal.Stages

end
-- ==== Proof.KPrefix.lean ====
/-
  What the first stretch of host operations computes.

  Before the first tiled region the program computes, from the edge list alone, every edge's source and target
  node (the list's two rows with the self loops appended) and every edge's weight (the product of its endpoints'
  inverse square roots of degree).  These three buffers are read again by every later aggregation; here each is
  identified, at the first region's entry, with the corresponding stage function of the edge list.
-/
import proofs.«176435_j26233660244215_1_alg».proof.Proof.Gen.KernelIdeal.Frame
import proofs.«176435_j26233660244215_1_alg».proof.Proof.Stages
import Idealize.ShloMosaic.Lib.StableHlo.Run

set_option maxRecDepth 16384

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The edges' source nodes. -/
theorem sources (c : Dev nD) : W3 m ρ c (Proc.devRef .tc main_v3) = Cert.ReferenceIdeal.Stages.src (m ((c : Thread nD τ).loc main_arg1)) := by
  show after hostOps0_2 (after hostOps0_1 (after hostOps0 (W0 m ρ c))) (Proc.devRef .tc main_v3) = _
  after_results_simp
  rfl

set_option maxHeartbeats 4000000 in
/-- The edges' target nodes. -/
theorem targets (c : Dev nD) : W3 m ρ c (Proc.devRef .tc main_v6) = Cert.ReferenceIdeal.Stages.tgt (m ((c : Thread nD τ).loc main_arg1)) := by
  show after hostOps0_2 (after hostOps0_1 (after hostOps0 (W0 m ρ c))) (Proc.devRef .tc main_v6) = _
  after_results_simp
  rfl

set_option maxHeartbeats 4000000 in
/-- The edges' weights. -/
theorem weights (c : Dev nD) : W3 m ρ c (Proc.devRef .tc main_v31) = Cert.ReferenceIdeal.Stages.edgeWeight (m ((c : Thread nD τ).loc main_arg1)) := by
  show after hostOps0_2 (after hostOps0_1 (after hostOps0 (W0 m ρ c))) (Proc.devRef .tc main_v31) = _
  after_results_simp
  rfl

end Cert.KernelIdeal.Prefix

end
-- ==== Proof.LibMatmulNN.lean ====
/-
  A matrix product read at an entry, over the extended reals.

  For an M×K array `a` and a K×N array `w`, the product contracting `a`'s second axis with `w`'s first, accumulated into
  the zero array, has at entry (p, n) the value  Σ_{k < K} a[p, k] · w[k, n]:  a finite sum of products of extended
  reals, with nothing left of any blocking or order of accumulation.
-/
import Idealize.ShloMosaic.PureOps.Ideal.Laws
import Idealize.ShloMosaic.Lib.ValueIdx

noncomputable section

namespace Cert.LibMatmulNN

open Idealize.ShloMosaic Idealize.ShloMosaic.ValueIdx

/-- At the ideal values, a `tpu.matmul` of an M×K by a K×N array whose dimension numbers are the plain ones
    (contract the left operand's axis 1 with the right operand's axis 0, no batch axis), into the zero accumulator,
    read at entry `(p, n)`, is the sum over `k` of `a[p, k] * w[k, n]`.  The dimension record is any one equal to
    `DotDims.plain M K N` (a printed program's own record is, by `rfl`). -/
theorem matmul_zero_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    FloatOps.matmul D prec a w (constant ⟨2, ![M, N]⟩ .f32 0x00000000#32) (ix2 p n)
      = ∑ k : Fin K, a (ix2 p k) * w (ix2 k n) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibMatmulNN

end
-- ==== Proof.Region0.lean ====
/-
  The first projection, tile by tile, is the dense product.

  The node features are cut into twenty blocks of 5000 rows; at each block the body multiplies the block by the
  whole 128×64 weight matrix (a change of float format before the product is the identity on exact values, and
  the accumulator starts at zero).  Entry (p, n) of a block's product is the sum over k of x[p, k] · w[k, n],
  which mentions only row p of the block; the twenty blocks of rows tile the rows of the result.  So the array
  the region leaves is, entry by entry, the product of the whole feature array with the weight matrix.
-/
import proofs.«176435_j26233660244215_1_alg».proof.Proof.Gen.KernelIdeal.Frame
import proofs.«176435_j26233660244215_1_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The dense product of an N×128 array with a 128×64 one, entry by entry. -/
def dense (x : S100000x128.Idx → Elt Ideal .f32) (w : S128x64.Idx → Elt Ideal .f32) : S100000x64.Idx → Elt Ideal .f32 :=
  fun i => ∑ k : Fin 128, x (ix2 (i 0) k) * w (ix2 k (i 1))

/-- One block's product at an entry: the sum over the contracted axis. -/
theorem block_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  exact Cert.LibMatmulNN.matmul_zero_apply (M := 5000) (K := 128) (N := 64) _ rfl none _ _ p q

/-- The index maps over the twenty points: the feature block and the result block move together down the rows,
    the weight matrix stays. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every block of rows is some point's. -/
theorem index_onto : ∀ q0 : Fin 20, ∃ t : Fin cfg0.N, win0_2.index t = ![q0.val, 0] :=
  (by decide +kernel : ∀ q0 : Fin 20, ∃ t : Fin grid0.N, win0_2.index t = ![q0.val, 0])

/-- What a point writes back is its block of the dense product of the arrays the region found. -/
theorem flushed_eq (c : Dev nD) (t : Fin cfg0.N) :
    (dat0 V c).flushed 2 t = ((cfg0.win 2).blk t).view.read (Elt Ideal) (dense (V c main_arg0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x64) origin]
  obtain ⟨e0, e1, e2, e3, e4, e5⟩ := index_facts t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = dense (V c main_arg0) (V c main_arg3) (((cfg0.win 2).blk t).view.emb (ix2 p q))
  refine (block_apply _ _ p q).trans ?_
  unfold dense
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  have l0 : iblk0 V c 0 t (ix2 p k) = V c main_arg0 (ix2 ((((cfg0.win 2).blk t).view.emb (ix2 p q)) 0) k) :=
    (show iblk0 V c 0 t (ix2 p k) = V c main_arg0 (((cfg0.win 0).blk t).view.emb (ix2 p k)) from rfl).trans (congrArg (V c main_arg0) h0)
  have l1 : iblk0 V c 1 t (ix2 k q) = V c main_arg3 (ix2 k ((((cfg0.win 2).blk t).view.emb (ix2 p q)) 1)) :=
    (show iblk0 V c 1 t (ix2 k q) = V c main_arg3 (((cfg0.win 1).blk t).view.emb (ix2 k q)) from rfl).trans (congrArg (V c main_arg3) h1)
  rw [l0, l1]

/-- An index of the result array is in a point's block iff each coordinate is in the block's range. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The blocks of rows tile the result: row r lies in block r / 5000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The array the region leaves in its output window is the dense product of the arrays it found. -/
theorem array_eq (c : Dev nD) : (dat0 V c).arrAt 2 cfg0.N = dense (V c main_arg0) (V c main_arg3) :=
  (dat0 V c).arrAt_eq_of_cover 2 (dense (V c main_arg0) (V c main_arg3)) (fun t _ => flushed_eq V c t) covered

end Cert.KernelIdeal.Region0

end
-- ==== Proof.Region1.lean ====
/-
  The first layer's bias and clamp, tile by tile.

  The aggregated rows are cut into twenty blocks of 5000 rows; at each block the body adds the 1×64 bias row to
  every row and takes the maximum with zero.  Entry (p, q) of a block's result mentions only entry (p, q) of the
  block and entry q of the bias row, and the twenty blocks tile the rows.  So the array the region leaves is,
  entry by entry, max (a[r, q] + b[q], 0) over the whole array.
-/
import proofs.«176435_j26233660244215_1_alg».proof.Proof.Gen.KernelIdeal.Frame
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Every row plus the bias row, clamped at zero, entry by entry. -/
def biased (a : S100000x64.Idx → Elt Ideal .f32) (b : S1x64.Idx → Elt Ideal .f32) : S100000x64.Idx → Elt Ideal .f32 :=
  fun i => max (a i + b (ix2 0 (i 1))) (Ideal.ofBits .f32 0x00000000#32)

/-- One block's result at an entry. -/
theorem block_apply (x0 : Vec Ideal S5000x64 .f32) (x1 : Vec Ideal S1x64 .f32) (p : Fin 5000) (q : Fin 64) :
    k1_pay1 (F := Ideal) x0 x1 (ix2 p q) = max (x0 (ix2 p q) + x1 (ix2 0 q)) (Ideal.ofBits .f32 0x00000000#32) := by
  unfold k1_pay1
  rw [shapeCast_self x0, shapeCast_self x1]
  refine (maximumf_apply _ _ (ix2 p q)).trans ?_
  refine congrArg₂ (fun x y : EReal => max x y) ?_ rfl
  refine (addf_apply _ _ (ix2 p q)).trans ?_
  exact congrArg (fun y : EReal => x0 (ix2 p q) + y) (broadcastTo_1b_ab_apply x1 _ p q)

/-- The index maps over the twenty points: the input block and the result block move together down the rows,
    the bias row stays. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every block of rows is some point's. -/
theorem index_onto : ∀ q0 : Fin 20, ∃ t : Fin cfg1.N, win1_2.index t = ![q0.val, 0] :=
  (by decide +kernel : ∀ q0 : Fin 20, ∃ t : Fin grid1.N, win1_2.index t = ![q0.val, 0])

/-- What a point writes back is its block of the biased, clamped array. -/
theorem flushed_eq (c : Dev nD) (t : Fin cfg1.N) :
    (dat1 V c).flushed 2 t = ((cfg1.win 2).blk t).view.read (Elt Ideal) (biased (V c main_v45) (V c main_v46)) := by
  show (cfg1.win 2).cut (grid1.coords t) ((dat1 V c).after 2 t) = _
  rw [after1_2]
  unfold out1_2
  rw [View.canon_unit_zero origin]
  simp only [View.ld_unit_zero (S := S5000x64) origin, View.ld_unit_zero (S := S1x64) origin]
  obtain ⟨e0, e1, e2, e3, e4, e5⟩ := index_facts t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (ix2 p q)
    = biased (V c main_v45) (V c main_v46) (((cfg1.win 2).blk t).view.emb (ix2 p q))
  refine (block_apply _ _ p q).trans ?_
  unfold biased
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have h1 : ((cfg1.win 1).blk t).view.emb (ix2 0 q) = ix2 0 ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  have l0 : iblk1 V c 0 t (ix2 p q) = V c main_v45 (((cfg1.win 2).blk t).view.emb (ix2 p q)) :=
    (show iblk1 V c 0 t (ix2 p q) = V c main_v45 (((cfg1.win 0).blk t).view.emb (ix2 p q)) from rfl).trans (congrArg (V c main_v45) h0)
  have l1 : iblk1 V c 1 t (ix2 0 q) = V c main_v46 (ix2 0 ((((cfg1.win 2).blk t).view.emb (ix2 p q)) 1)) :=
    (show iblk1 V c 1 t (ix2 0 q) = V c main_v46 (((cfg1.win 1).blk t).view.emb (ix2 0 q)) from rfl).trans (congrArg (V c main_v46) h1)
  rw [l0, l1]

/-- An index of the result array is in a point's block iff each coordinate is in the block's range. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- The blocks of rows tile the result: row r lies in block r / 5000. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The array the region leaves in its output window is the biased, clamped array of what it found. -/
theorem array_eq (c : Dev nD) : (dat1 V c).arrAt 2 cfg1.N = biased (V c main_v45) (V c main_v46) :=
  (dat1 V c).arrAt_eq_of_cover 2 (biased (V c main_v45) (V c main_v46)) (fun t _ => flushed_eq V c t) covered

end Cert.KernelIdeal.Region1

end
-- ==== Proof.Region2.lean ====
/-
  The second projection, tile by tile, is the dense product.

  The first layer's output is cut into twenty blocks of 5000 rows; at each block the body multiplies the block by
  the whole 64×64 weight matrix, the accumulator starting at zero.  Entry (p, n) of a block's product is the sum
  over k of h[p, k] · w[k, n], which mentions only row p of the block, and the twenty blocks tile the rows.  So
  the array the region leaves is, entry by entry, the product of the whole array with the weight matrix.
-/
import proofs.«176435_j26233660244215_1_alg».proof.Proof.Gen.KernelIdeal.Frame
import proofs.«176435_j26233660244215_1_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The dense product of an N×64 array with a 64×64 one, entry by entry. -/
def dense (x : S100000x64.Idx → Elt Ideal .f32) (w : S64x64.Idx → Elt Ideal .f32) : S100000x64.Idx → Elt Ideal .f32 :=
  fun i => ∑ k : Fin 64, x (ix2 (i 0) k) * w (ix2 k (i 1))

/-- One block's product at an entry: the sum over the contracted axis. -/
theorem block_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  rw [shapeCast_self x0]
  exact Cert.LibMatmulNN.matmul_zero_apply (M := 5000) (K := 64) (N := 64) _ rfl none _ _ p q

/-- The index maps over the twenty points: the feature block and the result block move together down the rows,
    the weight matrix stays. -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every block of rows is some point's. -/
theorem index_onto : ∀ q0 : Fin 20, ∃ t : Fin cfg2.N, win2_2.index t = ![q0.val, 0] :=
  (by decide +kernel : ∀ q0 : Fin 20, ∃ t : Fin grid2.N, win2_2.index t = ![q0.val, 0])

/-- What a point writes back is its block of the dense product of the arrays the region found. -/
theorem flushed_eq (c : Dev nD) (t : Fin cfg2.N) :
    (dat2 V c).flushed 2 t = ((cfg2.win 2).blk t).view.read (Elt Ideal) (dense (V c main_v47) (V c main_arg5)) := by
  show (cfg2.win 2).cut (grid2.coords t) ((dat2 V c).after 2 t) = _
  rw [after2_2]
  unfold out2_2
  rw [View.canon_unit_zero origin]
  simp only [View.ld_unit_zero (S := S5000x64) origin, View.ld_unit_zero (S := S64x64) origin]
  obtain ⟨e0, e1, e2, e3, e4, e5⟩ := index_facts t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q)
    = dense (V c main_v47) (V c main_arg5) (((cfg2.win 2).blk t).view.emb (ix2 p q))
  refine (block_apply _ _ p q).trans ?_
  unfold dense
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  have l0 : iblk2 V c 0 t (ix2 p k) = V c main_v47 (ix2 ((((cfg2.win 2).blk t).view.emb (ix2 p q)) 0) k) :=
    (show iblk2 V c 0 t (ix2 p k) = V c main_v47 (((cfg2.win 0).blk t).view.emb (ix2 p k)) from rfl).trans (congrArg (V c main_v47) h0)
  have l1 : iblk2 V c 1 t (ix2 k q) = V c main_arg5 (ix2 k ((((cfg2.win 2).blk t).view.emb (ix2 p q)) 1)) :=
    (show iblk2 V c 1 t (ix2 k q) = V c main_arg5 (((cfg2.win 1).blk t).view.emb (ix2 k q)) from rfl).trans (congrArg (V c main_arg5) h1)
  rw [l0, l1]

/-- An index of the result array is in a point's block iff each coordinate is in the block's range. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- The blocks of rows tile the result: row r lies in block r / 5000. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The array the region leaves in its output window is the dense product of the arrays it found. -/
theorem array_eq (c : Dev nD) : (dat2 V c).arrAt 2 cfg2.N = dense (V c main_v47) (V c main_arg5) :=
  (dat2 V c).arrAt_eq_of_cover 2 (dense (V c main_v47) (V c main_arg5)) (fun t _ => flushed_eq V c t) covered

end Cert.KernelIdeal.Region2

end
-- ==== Proof.Region3.lean ====
/-
  The second layer's bias and clamp, tile by tile.

  The aggregated rows are cut into twenty blocks of 5000 rows; at each block the body adds the 1×64 bias row to
  every row and takes the maximum with zero.  Entry (p, q) of a block's result mentions only entry (p, q) of the
  block and entry q of the bias row, and the twenty blocks tile the rows.  So the array the region leaves is,
  entry by entry, max (a[r, q] + b[q], 0) over the whole array.
-/
import proofs.«176435_j26233660244215_1_alg».proof.Proof.Gen.KernelIdeal.Frame
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Every row plus the bias row, clamped at zero, entry by entry. -/
def biased (a : S100000x64.Idx → Elt Ideal .f32) (b : S1x64.Idx → Elt Ideal .f32) : S100000x64.Idx → Elt Ideal .f32 :=
  fun i => max (a i + b (ix2 0 (i 1))) (Ideal.ofBits .f32 0x00000000#32)

/-- One block's result at an entry. -/
theorem block_apply (x0 : Vec Ideal S5000x64 .f32) (x1 : Vec Ideal S1x64 .f32) (p : Fin 5000) (q : Fin 64) :
    k3_pay1 (F := Ideal) x0 x1 (ix2 p q) = max (x0 (ix2 p q) + x1 (ix2 0 q)) (Ideal.ofBits .f32 0x00000000#32) := by
  unfold k3_pay1
  rw [shapeCast_self x0, shapeCast_self x1]
  refine (maximumf_apply _ _ (ix2 p q)).trans ?_
  refine congrArg₂ (fun x y : EReal => max x y) ?_ rfl
  refine (addf_apply _ _ (ix2 p q)).trans ?_
  exact congrArg (fun y : EReal => x0 (ix2 p q) + y) (broadcastTo_1b_ab_apply x1 _ p q)

/-- The index maps over the twenty points: the input block and the result block move together down the rows,
    the bias row stays. -/
theorem index_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 19 :=
  (by decide +kernel : ∀ t : Fin grid3.N, _)

/-- Every block of rows is some point's. -/
theorem index_onto : ∀ q0 : Fin 20, ∃ t : Fin cfg3.N, win3_2.index t = ![q0.val, 0] :=
  (by decide +kernel : ∀ q0 : Fin 20, ∃ t : Fin grid3.N, win3_2.index t = ![q0.val, 0])

/-- What a point writes back is its block of the biased, clamped array. -/
theorem flushed_eq (c : Dev nD) (t : Fin cfg3.N) :
    (dat3 V c).flushed 2 t = ((cfg3.win 2).blk t).view.read (Elt Ideal) (biased (V c main_v61) (V c main_v62)) := by
  show (cfg3.win 2).cut (grid3.coords t) ((dat3 V c).after 2 t) = _
  rw [after3_2]
  unfold out3_2
  rw [View.canon_unit_zero origin]
  simp only [View.ld_unit_zero (S := S5000x64) origin, View.ld_unit_zero (S := S1x64) origin]
  obtain ⟨e0, e1, e2, e3, e4, e5⟩ := index_facts t
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (ix2 p q)
    = biased (V c main_v61) (V c main_v62) (((cfg3.win 2).blk t).view.emb (ix2 p q))
  refine (block_apply _ _ p q).trans ?_
  unfold biased
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have h1 : ((cfg3.win 1).blk t).view.emb (ix2 0 q) = ix2 0 ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  have l0 : iblk3 V c 0 t (ix2 p q) = V c main_v61 (((cfg3.win 2).blk t).view.emb (ix2 p q)) :=
    (show iblk3 V c 0 t (ix2 p q) = V c main_v61 (((cfg3.win 0).blk t).view.emb (ix2 p q)) from rfl).trans (congrArg (V c main_v61) h0)
  have l1 : iblk3 V c 1 t (ix2 0 q) = V c main_v62 (ix2 0 ((((cfg3.win 2).blk t).view.emb (ix2 p q)) 1)) :=
    (show iblk3 V c 1 t (ix2 0 q) = V c main_v62 (((cfg3.win 1).blk t).view.emb (ix2 0 q)) from rfl).trans (congrArg (V c main_v62) h1)
  rw [l0, l1]

/-- An index of the result array is in a point's block iff each coordinate is in the block's range. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v63).slice (win3_2.rect t)).set ↔ _
  rw [View.set_slice_whole, Rect.mem_set_unit]
  exact Iff.rfl

/-- The blocks of rows tile the result: row r lies in block r / 5000. -/
theorem covered (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The array the region leaves in its output window is the biased, clamped array of what it found. -/
theorem array_eq (c : Dev nD) : (dat3 V c).arrAt 2 cfg3.N = biased (V c main_v61) (V c main_v62) :=
  (dat3 V c).arrAt_eq_of_cover 2 (biased (V c main_v61) (V c main_v62)) (fun t _ => flushed_eq V c t) covered

end Cert.KernelIdeal.Region3

end
-- ==== Proof.PayScores.lean ====
/-
  A row's gated score times the row, over the extended reals.

  For a 5000×64 array `h`, two 1×64 weight rows `aw`, `mw` and two 1×1 biases `ab`, `mb`, the pooling body forms for every
  row p two affine scores,   s_a(p) = Σ_{k < 64} h[p, k] · aw[0, k] + ab[0, 0]   and   s_m(p) = Σ_{k < 64} h[p, k] · mw[0, k] + mb[0, 0],
  gates the first by the logistic of the second, and scales row p of `h` by the result.  Read at entry (p, q) it is therefore
      h[p, q] · ( s_a(p) · logistic(s_m(p)) ):
  finite sums and products of extended reals and one logistic, with nothing left of the casts, the broadcasts or the order
  of summation.

  Four small facts carry it: a length-a vector viewed as an a×1 column reads its own entry; the sum of an a×b array along
  its rows reads, at i, the sum over k of the entries (i, k); a single row (or a single entry) broadcast over many rows
  reads that row (that entry) everywhere; an a×1 column broadcast over b columns reads, at (p, c), the column's entry p.
  The affine score column — row sums of the array times the weight row, plus the bias — is read at an entry once and
  used for both scores.
-/
import proofs.«176435_j26233660244215_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayScores

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` array along its rows (axis 1 summed away) reads, at `i`, the sum over `k` of the entries
    `(i, k)`: the index over `i` with `k` inserted on the summed axis is `(i, k)`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction (F := Ideal) .add [1] ⟨1, ![a]⟩ src 0x00000000#32 h hφ hacc (ix1 i) = ∑ k : Fin b, src (ix2 i k) := by
  refine (Ideal.multiReduction_add_single src 0x00000000#32 h hφ hacc (ix1 i)).trans ?_
  show ∑ k : Fin b, src (h.lift (ix1 i) k) = ∑ k : Fin b, src (ix2 i k)
  refine Finset.sum_congr rfl fun k _ => congrArg src ?_
  funext c
  match c with
  | ⟨0, _⟩ => rfl
  | ⟨1, _⟩ => rfl

/-- THE AFFINE SCORE COLUMN AT AN ENTRY: the rows of `x` times the weight row `w`, summed along each row, viewed as a
    column, plus the bias `c` broadcast down it, reads at `(p, z)` row `p` dotted with the weight row, plus the bias. -/
theorem affineColumn_apply {a b : ℕ} (x : FVec Ideal ⟨2, ![a, b]⟩ .f32) (w : FVec Ideal ⟨2, ![1, b]⟩ .f32)
    (c : FVec Ideal ⟨2, ![1, 1]⟩ .f32) (hw : (⟨2, ![1, b]⟩ : Shape).Broadcasts ⟨2, ![a, b]⟩)
    (hr : (⟨2, ![a, b]⟩ : Shape).Reduces [1] ⟨1, ![a]⟩) (hφ : FKind.Formats .f32)
    (hacc : (0x00000000#32 : BitVec 32) = FKind.add.neutral .f32 hφ)
    (hs : (⟨1, ![a]⟩ : Shape).ShapeCasts ⟨2, ![a, 1]⟩) (hc : (⟨2, ![1, 1]⟩ : Shape).Broadcasts ⟨2, ![a, 1]⟩)
    (p : Fin a) (z : Fin 1) :
    addf (shapeCast ⟨2, ![a, 1]⟩
        (multiReduction (F := Ideal) .add [1] ⟨1, ![a]⟩ (mulf x (broadcastTo ⟨2, ![a, b]⟩ w hw)) 0x00000000#32 hr hφ hacc) hs)
      (broadcastTo ⟨2, ![a, 1]⟩ c hc) (ix2 p z)
      = (∑ k : Fin b, x (ix2 p k) * w (ix2 0 k)) + c (ix2 0 0) := by
  refine (addf_apply _ _ (ix2 p z)).trans ?_
  refine congrArg₂ (fun u v : EReal => u + v) ?_ ?_
  · refine (shapeCast_a_a1_apply _ _ p z).trans ?_
    refine (rowSum_apply _ _ _ _ p).trans ?_
    refine Finset.sum_congr rfl fun k _ => ?_
    refine (mulf_apply _ _ (ix2 p k)).trans ?_
    exact congrArg (fun u : EReal => x (ix2 p k) * u) (broadcastTo_1b_ab_apply w _ p k)
  · refine (broadcastTo_1b_ab_apply c _ p z).trans ?_
    exact congrArg (fun u : Fin 1 => c (ix2 0 u)) (Subsingleton.elim z 0)

/-- THE POOLING BODY AT AN ENTRY: entry `(p, q)` of `h` times row `p`'s first score gated by the logistic of its second. -/
theorem gated_apply (h : Vec Ideal S5000x64 .f32) (aw : Vec Ideal S1x64 .f32) (ab : Vec Ideal S1x1 .f32)
    (mw : Vec Ideal S1x64 .f32) (mb : Vec Ideal S1x1 .f32) (p : Fin 5000) (q : Fin 64) :
    Cert.KernelIdeal.Gen.k4_pay1 (F := Ideal) h aw ab mw mb (ix2 p q)
      = h (ix2 p q) * (((∑ k : Fin 64, h (ix2 p k) * aw (ix2 0 k)) + ab (ix2 0 0))
          * Ideal.logistic ((∑ k : Fin 64, h (ix2 p k) * mw (ix2 0 k)) + mb (ix2 0 0))) := by
  unfold Cert.KernelIdeal.Gen.k4_pay1
  -- the five casts of a shape to itself are the identity
  rw [shapeCast_self h, shapeCast_self aw, shapeCast_self ab, shapeCast_self mw, shapeCast_self mb]
  -- the outer product, entry by entry; its right factor is the gated score column broadcast along the row
  refine (mulf_apply _ _ (ix2 p q)).trans ?_
  refine congrArg (fun u : EReal => h (ix2 p q) * u) ?_
  refine (broadcastTo_a1_ab_apply _ _ p q).trans ?_
  -- the gated score column at (p, 0): the first score times the logistic of the second
  refine (mulf_apply _ _ (ix2 p (0 : Fin 1))).trans ?_
  refine congrArg₂ (fun u v : EReal => u * v) ?_ ?_
  · exact affineColumn_apply h aw ab _ _ _ _ _ _ p 0
  · show Ideal.logistic _ = _
    exact congrArg Ideal.logistic (affineColumn_apply h mw mb _ _ _ _ _ _ p 0)

end Cert.KernelIdeal.PayScores
-- ==== Proof.Region4.lean ====
/-
  The gated scores, tile by tile.

  The second layer's output is cut into twenty blocks of 5000 rows.  At each block the body forms, for every row,
  the row's dot product with the attention weights plus the attention bias, and the logistic of the row's dot
  product with the mask weights plus the mask bias, and scales the row by the product of the two.  Entry (p, q)
  of a block's result mentions only row p of the block, and the twenty blocks tile the rows.  So the array the
  region leaves is, entry by entry,  h[r, q] · ((Σ_k h[r, k]·a[k] + α) · logistic (Σ_k h[r, k]·μ[k] + β))  over
  the whole array.
-/
import proofs.«176435_j26233660244215_1_alg».proof.Proof.Gen.KernelIdeal.Frame
import proofs.«176435_j26233660244215_1_alg».proof.Proof.PayScores
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Every row scaled by its gated score, entry by entry. -/
def scored (h : S100000x64.Idx → Elt Ideal .f32) (aw : S1x64.Idx → Elt Ideal .f32) (ab : S1x1.Idx → Elt Ideal .f32)
    (mw : S1x64.Idx → Elt Ideal .f32) (mb : S1x1.Idx → Elt Ideal .f32) : S100000x64.Idx → Elt Ideal .f32 :=
  fun i => h i * (((∑ k : Fin 64, h (ix2 (i 0) k) * aw (ix2 0 k)) + ab (ix2 0 0))
    * Ideal.logistic ((∑ k : Fin 64, h (ix2 (i 0) k) * mw (ix2 0 k)) + mb (ix2 0 0)))

/-- The index maps over the twenty points: the input block and the result block move together down the rows,
    the two weight rows and the two biases stay. -/
theorem index_facts : ∀ t : Fin cfg4.N, win4_0.index t (0 : Fin 2) = win4_5.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 ∧ win4_5.index t (0 : Fin 2) ≤ 19 :=
  (by decide +kernel : ∀ t : Fin grid4.N, _)

/-- Every block of rows is some point's. -/
theorem index_onto : ∀ q0 : Fin 20, ∃ t : Fin cfg4.N, win4_5.index t = ![q0.val, 0] :=
  (by decide +kernel : ∀ q0 : Fin 20, ∃ t : Fin grid4.N, win4_5.index t = ![q0.val, 0])

set_option maxHeartbeats 4000000 in
/-- What a point writes back is its block of the scored array. -/
theorem flushed_eq (c : Dev nD) (t : Fin cfg4.N) :
    (dat4 V c).flushed 5 t = ((cfg4.win 5).blk t).view.read (Elt Ideal)
      (scored (V c main_v63) (V c main_v64) (V c main_v66) (V c main_v65) (V c main_v67)) := by
  show (cfg4.win 5).cut (grid4.coords t) ((dat4 V c).after 5 t) = _
  rw [after4_5]
  unfold out4_5
  rw [View.canon_unit_zero origin]
  simp only [View.ld_unit_zero (S := S5000x64) origin, View.ld_unit_zero (S := S1x64) origin, View.ld_unit_zero (S := S1x1) origin]
  obtain ⟨e0, e1, e2, e3, e4, e5, e6, e7, e8, e9, e10, e11⟩ := index_facts t
  funext j
  obtain ⟨p, q, rfl⟩ : ∃ (p : Fin 5000) (q : Fin 64), j = ix2 p q := ⟨j 0, j 1, eq_ix2 j⟩
  show k4_pay1 (F := Ideal) (iblk4 V c 0 t) (iblk4 V c 1 t) (iblk4 V c 2 t) (iblk4 V c 3 t) (iblk4 V c 4 t) (ix2 p q)
    = scored (V c main_v63) (V c main_v64) (V c main_v66) (V c main_v65) (V c main_v67) (((cfg4.win 5).blk t).view.emb (ix2 p q))
  refine (Cert.KernelIdeal.PayScores.gated_apply _ _ _ _ _ p q).trans ?_
  unfold scored
  have h0 : ∀ k : Fin 64, ((cfg4.win 0).blk t).view.emb (ix2 p k) = ix2 ((((cfg4.win 5).blk t).view.emb (ix2 p q)) 0) k := by
    intro k; funext a; apply Fin.ext
    match a with
    | ⟨0, _⟩ => show win4_0.index t (0 : Fin 2) * 5000 + 1 * p.val = win4_5.index t (0 : Fin 2) * 5000 + 1 * p.val; omega
    | ⟨1, _⟩ => show win4_0.index t (1 : Fin 2) * 64 + 1 * k.val = k.val; omega
  have h0q : ((cfg4.win 0).blk t).view.emb (ix2 p q) = ((cfg4.win 5).blk t).view.emb (ix2 p q) := by
    funext a; apply Fin.ext
    match a with
    | ⟨0, _⟩ => show win4_0.index t (0 : Fin 2) * 5000 + 1 * p.val = win4_5.index t (0 : Fin 2) * 5000 + 1 * p.val; omega
    | ⟨1, _⟩ => show win4_0.index t (1 : Fin 2) * 64 + 1 * q.val = win4_5.index t (1 : Fin 2) * 64 + 1 * q.val; omega
  have h1 : ∀ k : Fin 64, ((cfg4.win 1).blk t).view.emb (ix2 0 k) = ix2 0 k := by
    intro k; funext a; apply Fin.ext
    match a with
    | ⟨0, _⟩ => show win4_1.index t (0 : Fin 2) * 1 + 1 * 0 = 0; omega
    | ⟨1, _⟩ => show win4_1.index t (1 : Fin 2) * 64 + 1 * k.val = k.val; omega
  have h2 : ((cfg4.win 2).blk t).view.emb (ix2 0 0) = ix2 0 0 := by
    funext a; apply Fin.ext
    match a with
    | ⟨0, _⟩ => show win4_2.index t (0 : Fin 2) * 1 + 1 * 0 = 0; omega
    | ⟨1, _⟩ => show win4_2.index t (1 : Fin 2) * 1 + 1 * 0 = 0; omega
  have h3 : ∀ k : Fin 64, ((cfg4.win 3).blk t).view.emb (ix2 0 k) = ix2 0 k := by
    intro k; funext a; apply Fin.ext
    match a with
    | ⟨0, _⟩ => show win4_3.index t (0 : Fin 2) * 1 + 1 * 0 = 0; omega
    | ⟨1, _⟩ => show win4_3.index t (1 : Fin 2) * 64 + 1 * k.val = k.val; omega
  have h4 : ((cfg4.win 4).blk t).view.emb (ix2 0 0) = ix2 0 0 := by
    funext a; apply Fin.ext
    match a with
    | ⟨0, _⟩ => show win4_4.index t (0 : Fin 2) * 1 + 1 * 0 = 0; omega
    | ⟨1, _⟩ => show win4_4.index t (1 : Fin 2) * 1 + 1 * 0 = 0; omega
  have l0 : ∀ k : Fin 64, iblk4 V c 0 t (ix2 p k) = V c main_v63 (ix2 ((((cfg4.win 5).blk t).view.emb (ix2 p q)) 0) k) := fun k =>
    (show iblk4 V c 0 t (ix2 p k) = V c main_v63 (((cfg4.win 0).blk t).view.emb (ix2 p k)) from rfl).trans (congrArg (V c main_v63) (h0 k))
  have l0q : iblk4 V c 0 t (ix2 p q) = V c main_v63 (((cfg4.win 5).blk t).view.emb (ix2 p q)) :=
    (show iblk4 V c 0 t (ix2 p q) = V c main_v63 (((cfg4.win 0).blk t).view.emb (ix2 p q)) from rfl).trans (congrArg (V c main_v63) h0q)
  have l1 : ∀ k : Fin 64, iblk4 V c 1 t (ix2 0 k) = V c main_v64 (ix2 0 k) := fun k =>
    (show iblk4 V c 1 t (ix2 0 k) = V c main_v64 (((cfg4.win 1).blk t).view.emb (ix2 0 k)) from rfl).trans (congrArg (V c main_v64) (h1 k))
  have l2 : iblk4 V c 2 t (ix2 0 0) = V c main_v66 (ix2 0 0) :=
    (show iblk4 V c 2 t (ix2 0 0) = V c main_v66 (((cfg4.win 2).blk t).view.emb (ix2 0 0)) from rfl).trans (congrArg (V c main_v66) h2)
  have l3 : ∀ k : Fin 64, iblk4 V c 3 t (ix2 0 k) = V c main_v65 (ix2 0 k) := fun k =>
    (show iblk4 V c 3 t (ix2 0 k) = V c main_v65 (((cfg4.win 3).blk t).view.emb (ix2 0 k)) from rfl).trans (congrArg (V c main_v65) (h3 k))
  have l4 : iblk4 V c 4 t (ix2 0 0) = V c main_v67 (ix2 0 0) :=
    (show iblk4 V c 4 t (ix2 0 0) = V c main_v67 (((cfg4.win 4).blk t).view.emb (ix2 0 0)) from rfl).trans (congrArg (V c main_v67) h4)
  rw [l0q, l2, l4]
  simp only [l0, l1, l3]

/-- An index of the result array is in a point's block iff each coordinate is in the block's range. -/
theorem mem_block (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v68).slice (win4_5.rect t)).set ↔ _
  rw [View.set_slice_whole, Rect.mem_set_unit]
  exact Iff.rfl

/-- The blocks of rows tile the result: row r lies in block r / 5000. -/
theorem covered (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  obtain ⟨t, ht⟩ := index_onto ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_block]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

/-- The array the region leaves in its output window is the scored array of what it found. -/
theorem array_eq (c : Dev nD) : (dat4 V c).arrAt 5 cfg4.N
    = scored (V c main_v63) (V c main_v64) (V c main_v66) (V c main_v65) (V c main_v67) :=
  (dat4 V c).arrAt_eq_of_cover 5 (scored (V c main_v63) (V c main_v64) (V c main_v66) (V c main_v65) (V c main_v67))
    (fun t _ => flushed_eq V c t) covered

end Cert.KernelIdeal.Region4

end
-- ==== Proof.PayProject.lean ====
/-
  A row's dot product with the weight row, plus the bias, over the extended reals.

  For a 2048×64 array `P`, a 1×64 weight row `w` and a 1×1 bias `b`, the projection body multiplies every row of `P`
  entrywise by the weight row, sums each row over its 64 entries, views the 2048 sums as a 2048×1 column and adds the
  bias to every entry.  Read at entry (g, 0) it is therefore   Σ_{k < 64} P[g, k] · w[0, k]  +  b[0, 0]:   a finite sum of
  products of extended reals plus one more, with nothing left of the casts, the broadcasts or the order of summation.

  Three small facts carry it: a length-a vector viewed as an a×1 column reads its own entry; the sum of an a×b array
  along its rows reads, at i, the sum over k of the entries (i, k); a single row (or a single entry) broadcast over
  many rows reads that row (that entry) everywhere.
-/
import proofs.«176435_j26233660244215_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayProject

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along its rows (axis 1 summed away) reads, at `i`, the sum over `k` of the entries
    `(i, k)`: the index over `i` with `k` inserted on the summed axis is `(i, k)`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction (F := Ideal) .add [1] ⟨1, ![a]⟩ src 0x00000000#32 h hφ hacc (ix1 i) = ∑ k : Fin b, src (ix2 i k) := by
  refine (Ideal.multiReduction_add_single src 0x00000000#32 h hφ hacc (ix1 i)).trans ?_
  show ∑ k : Fin b, src (h.lift (ix1 i) k) = ∑ k : Fin b, src (ix2 i k)
  refine Finset.sum_congr rfl fun k _ => congrArg src ?_
  funext c
  match c with
  | ⟨0, _⟩ => rfl
  | ⟨1, _⟩ => rfl

/-- THE PROJECTION BODY AT AN ENTRY: row `g` of `P` dotted with the weight row, plus the bias. -/
theorem project_apply (P : Vec Ideal S2048x64 .f32) (w : Vec Ideal S1x64 .f32) (b : Vec Ideal S1x1 .f32) (g : Fin 2048) (z : Fin 1) :
    Cert.KernelIdeal.Gen.k5_pay1 (F := Ideal) P w b (ix2 g z) = (∑ k : Fin 64, P (ix2 g k) * w (ix2 0 k)) + b (ix2 0 0) := by
  unfold Cert.KernelIdeal.Gen.k5_pay1
  -- the three casts of a shape to itself are the identity
  rw [shapeCast_self P, shapeCast_self w, shapeCast_self b]
  -- the outer sum of two columns, entry by entry
  refine (addf_apply _ _ (ix2 g z)).trans ?_
  refine congrArg₂ (fun x y : EReal => x + y) ?_ ?_
  · -- the column of row sums at (g, z) is the row sum at g, a sum over k of products whose right factor is the weight row
    refine (shapeCast_a_a1_apply _ _ g z).trans ?_
    refine (rowSum_apply _ _ _ _ g).trans ?_
    refine Finset.sum_congr rfl fun k _ => ?_
    refine (mulf_apply _ _ (ix2 g k)).trans ?_
    exact congrArg (fun x : EReal => P (ix2 g k) * x) (broadcastTo_1b_ab_apply w _ g k)
  · -- the bias broadcast down the column is the bias's one entry
    refine (broadcastTo_1b_ab_apply b _ g z).trans ?_
    exact congrArg (fun u : Fin 1 => b (ix2 0 u)) (Subsingleton.elim z 0)

end Cert.KernelIdeal.PayProject
-- ==== Proof.Region5.lean ====
/-
  The read-out, in one tile.

  The per-graph sums are one 2048×64 block.  The body takes each row's dot product with the 1×64 output weights
  and adds the output bias, leaving a 2048×1 column, and the single grid point writes the whole column back.  So
  the array the region leaves is, entry by entry,  Σ_k P[g, k]·w[k] + b.
-/
import proofs.«176435_j26233660244215_1_alg».proof.Proof.Gen.KernelIdeal.Frame
import proofs.«176435_j26233660244215_1_alg».proof.Proof.PayProject
import Idealize.ShloMosaic.Lib.Pipeline.Value
import Idealize.ShloMosaic.Lib.ValueIdx
import Idealize.ShloMosaic.PureOps.Ideal.Laws

set_option maxRecDepth 16384

noncomputable section

namespace Cert.KernelIdeal.Region5

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Every row's dot product with the weight row, plus the bias, entry by entry. -/
def projected (P : S2048x64.Idx → Elt Ideal .f32) (w : S1x64.Idx → Elt Ideal .f32) (b : S1x1.Idx → Elt Ideal .f32) :
    S2048x1.Idx → Elt Ideal .f32 :=
  fun i => (∑ k : Fin 64, P (ix2 (i 0) k) * w (ix2 0 k)) + b (ix2 0 0)

/-- The index maps at the one grid point: every window is its whole array. -/
theorem index_facts : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- What the point writes back is the whole projected column. -/
theorem flushed_eq (c : Dev nD) (t : Fin cfg5.N) :
    (dat5 V c).flushed 3 t = ((cfg5.win 3).blk t).view.read (Elt Ideal) (projected (V c main_v71) (V c main_v72) (V c main_v73)) := by
  show (cfg5.win 3).cut (grid5.coords t) ((dat5 V c).after 3 t) = _
  rw [after5_3]
  unfold out5_3
  rw [View.canon_unit_zero origin]
  simp only [View.ld_unit_zero (S := S2048x64) origin, View.ld_unit_zero (S := S1x64) origin, View.ld_unit_zero (S := S1x1) origin]
  obtain ⟨e0, e1, e2, e3, e4, e5, e6, e7⟩ := index_facts t
  funext j
  obtain ⟨g, z, rfl⟩ : ∃ (g : Fin 2048) (z : Fin 1), j = ix2 g z := ⟨j 0, j 1, eq_ix2 j⟩
  show k5_pay1 (F := Ideal) (iblk5 V c 0 t) (iblk5 V c 1 t) (iblk5 V c 2 t) (ix2 g z)
    = projected (V c main_v71) (V c main_v72) (V c main_v73) (((cfg5.win 3).blk t).view.emb (ix2 g z))
  refine (Cert.KernelIdeal.PayProject.project_apply _ _ _ g z).trans ?_
  unfold projected
  have h0 : ∀ k : Fin 64, ((cfg5.win 0).blk t).view.emb (ix2 g k) = ix2 ((((cfg5.win 3).blk t).view.emb (ix2 g z)) 0) k := by
    intro k; funext a; apply Fin.ext
    match a with
    | ⟨0, _⟩ => show win5_0.index t (0 : Fin 2) * 2048 + 1 * g.val = win5_3.index t (0 : Fin 2) * 2048 + 1 * g.val; omega
    | ⟨1, _⟩ => show win5_0.index t (1 : Fin 2) * 64 + 1 * k.val = k.val; omega
  have h1 : ∀ k : Fin 64, ((cfg5.win 1).blk t).view.emb (ix2 0 k) = ix2 0 k := by
    intro k; funext a; apply Fin.ext
    match a with
    | ⟨0, _⟩ => show win5_1.index t (0 : Fin 2) * 1 + 1 * 0 = 0; omega
    | ⟨1, _⟩ => show win5_1.index t (1 : Fin 2) * 64 + 1 * k.val = k.val; omega
  have h2 : ((cfg5.win 2).blk t).view.emb (ix2 0 0) = ix2 0 0 := by
    funext a; apply Fin.ext
    match a with
    | ⟨0, _⟩ => show win5_2.index t (0 : Fin 2) * 1 + 1 * 0 = 0; omega
    | ⟨1, _⟩ => show win5_2.index t (1 : Fin 2) * 1 + 1 * 0 = 0; omega
  have l0 : ∀ k : Fin 64, iblk5 V c 0 t (ix2 g k) = V c main_v71 (ix2 ((((cfg5.win 3).blk t).view.emb (ix2 g z)) 0) k) := fun k =>
    (show iblk5 V c 0 t (ix2 g k) = V c main_v71 (((cfg5.win 0).blk t).view.emb (ix2 g k)) from rfl).trans (congrArg (V c main_v71) (h0 k))
  have l1 : ∀ k : Fin 64, iblk5 V c 1 t (ix2 0 k) = V c main_v72 (ix2 0 k) := fun k =>
    (show iblk5 V c 1 t (ix2 0 k) = V c main_v72 (((cfg5.win 1).blk t).view.emb (ix2 0 k)) from rfl).trans (congrArg (V c main_v72) (h1 k))
  have l2 : iblk5 V c 2 t (ix2 0 0) = V c main_v73 (ix2 0 0) :=
    (show iblk5 V c 2 t (ix2 0 0) = V c main_v73 (((cfg5.win 2).blk t).view.emb (ix2 0 0)) from rfl).trans (congrArg (V c main_v73) h2)
  rw [l2]
  simp only [l0, l1]

/-- An index of the result column is in the point's block iff each coordinate is in the block's range. -/
theorem mem_block (t : Fin cfg5.N) (i : S2048x1.Idx) :
    i ∈ ((cfg5.win 3).blk t).view.set ↔ ∀ a : Fin 2, win5_3.index t a * S2048x1.size a ≤ (i a).val ∧ (i a).val < win5_3.index t a * S2048x1.size a + S2048x1.size a := by
  show i ∈ ((View.whole main_v74).slice (win5_3.rect t)).set ↔ _
  rw [View.set_slice_whole, Rect.mem_set_unit]
  exact Iff.rfl

/-- The one block is the whole column. -/
theorem covered (i : S2048x1.Idx) : ∃ t : Fin cfg5.N, (cfg5.win 3).flush t = true ∧ i ∈ ((cfg5.win 3).blk t).view.set := by
  have hi0 : (i 0).val < 2048 := (i 0).isLt
  have hi1 : (i 1).val < 1 := (i 1).isLt
  obtain ⟨e0, e1, e2, e3, e4, e5, e6, e7⟩ := index_facts t5_0
  refine ⟨t5_0, flush5_3 t5_0, ?_⟩
  rw [mem_block]
  intro a
  match a with
  | ⟨0, _⟩ => show win5_3.index t5_0 (0 : Fin 2) * 2048 ≤ (i 0).val ∧ (i 0).val < win5_3.index t5_0 (0 : Fin 2) * 2048 + 2048; omega
  | ⟨1, _⟩ => show win5_3.index t5_0 (1 : Fin 2) * 1 ≤ (i 1).val ∧ (i 1).val < win5_3.index t5_0 (1 : Fin 2) * 1 + 1; omega

/-- The array the region leaves in its output window is the projected column of what it found. -/
theorem array_eq (c : Dev nD) : (dat5 V c).arrAt 3 cfg5.N = projected (V c main_v71) (V c main_v72) (V c main_v73) :=
  (dat5 V c).arrAt_eq_of_cover 3 (projected (V c main_v71) (V c main_v72) (V c main_v73)) (fun t _ => flushed_eq V c t) covered

end Cert.KernelIdeal.Region5

end
-- ==== Proof.DenseAt.lean ====
/-
  The dense stages read at an entry, over the extended reals.

  Each stage of the network is a composition of whole-array operations; read at one entry it is a closed expression in
  the entries of its operands:
    · a projection  (x · w)[p, n] = Σ_k x[p, k] · w[k, n];
    · the bias and clamp  max(a[p, q] + b[q], 0);
    · the gated rows  h[p, q] · ( s_a(p) · logistic(s_m(p)) ),  with  s(p) = Σ_k h[p, k] · w[k, 0] + b[0]  for each
      of the two weight columns, the logistic being spelt  1 / (1 + exp(−s));
    · the read-out  Σ_k P[g, k] · w[k, 0] + b[0].
  Nothing is left of the broadcasts, of the order of summation, or of the spelling of the logistic.
-/
import proofs.«176435_j26233660244215_1_alg».proof.Proof.Stages
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.ReferenceIdeal.DenseAt

open Cert.ReferenceIdeal Cert.ReferenceIdeal.Stages Idealize.ShloMosaic Idealize.ShloMosaic.ValueIdx

/-! ## A matrix product at an entry -/

/-- The product of an `M×K` by a `K×N` array that contracts the left operand's second axis with the right operand's
    first (no batch axis), read at entry `(p, n)`, is the sum over `k` of `x[p, k] * w[k, n]`.  The dimension record is
    any one equal to the plain one (a program's own record is, by `rfl`). -/
theorem dotPlain_apply {M K N : ℕ} {φ₁ φ₂ : FTy} (D : DotDims ⟨2, ![M, K]⟩ ⟨2, ![K, N]⟩ ⟨2, ![M, N]⟩)
    (hD : D = DotDims.plain M K N) (prec : Option ContractPrecision)
    (x : FVec Ideal ⟨2, ![M, K]⟩ φ₁) (w : FVec Ideal ⟨2, ![K, N]⟩ φ₂) (p : Fin M) (n : Fin N) :
    Host.dotGeneral (F := Ideal) D prec x w (ix2 p n) = ∑ k : Fin K, x (ix2 p k) * w (ix2 k n) := by
  subst hD
  refine (Ideal.dotGeneral_apply _ prec .single x w (ix2 p n)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun a => Fin.ext (by
      match a with
      | ⟨0, _⟩ => exact ((DotDims.plain M K N).rhsIdx_val_of_single rfl _ _).trans hk
      | ⟨1, _⟩ => rfl)
  rw [el, er]

/-! ## The two projections -/

/-- The first layer's projection at `(p, n)`: row `p` of the features against column `n` of the weights. -/
theorem project1_apply (x : Arr Ideal S100000x128 .f32) (w : Arr Ideal S128x64 .f32) (p : Fin 100000) (n : Fin 64) :
    project1 x w (ix2 p n) = ∑ k : Fin 128, x (ix2 p k) * w (ix2 k n) :=
  dotPlain_apply dot_S100000x128_S128x64_S100000x64_1_0_0_1_n_n rfl none x w p n

/-- The second layer's projection at `(p, n)`. -/
theorem project2_apply (h : Arr Ideal S100000x64 .f32) (w : Arr Ideal S64x64 .f32) (p : Fin 100000) (n : Fin 64) :
    project2 h w (ix2 p n) = ∑ k : Fin 64, h (ix2 p k) * w (ix2 k n) :=
  dotPlain_apply dot_S100000x64_S64x64_S100000x64_1_0_0_1_n_n rfl none h w p n

/-! ## The bias and the clamp -/

/-- The bias row added to every row and the clamp at zero, at `(p, q)`: `max (a[p, q] + b[q]) 0`, the zero being the
    value of the all-zero word. -/
theorem biasRelu_apply (a : Arr Ideal S100000x64 .f32) (b : Arr Ideal S64 .f32) (p : Fin 100000) (q : Fin 64) :
    biasRelu a b (ix2 p q) = max (a (ix2 p q) + b (ix1 q)) (Ideal.ofBits .f32 0x00000000#32) := by
  unfold biasRelu
  refine (maximumf_apply _ _ (ix2 p q)).trans ?_
  refine congrArg₂ (fun u v : EReal => max u v) ?_ ?_
  · -- the sum, entry by entry; the bias row viewed as a 1×64 array and repeated down the rows reads b[q]
    refine (addf_apply _ _ (ix2 p q)).trans ?_
    refine congrArg (fun u : EReal => a (ix2 p q) + u) ?_
    refine (broadcastInDim_apply _ _ _ (ix2 p q) (ix2 (0 : Fin 1) q) fun ax => ?_).trans ?_
    · match ax with
      | ⟨0, _⟩ => rfl
      | ⟨1, _⟩ => rfl
    · exact broadcastInDim_apply _ _ _ (ix2 (0 : Fin 1) q) (ix1 q) fun ax => (match ax with | ⟨0, _⟩ => rfl)
  · -- the zero scalar repeated everywhere
    exact (broadcastInDim_apply _ _ _ (ix2 p q) ix0 fun ax => ax.elim0).trans (constant_apply _ _)

/-! ## The read-out -/

/-- A one-entry bias viewed as a 1×1 array and repeated down an `a×1` column reads that entry everywhere. -/
theorem biasColumn_apply {a : ℕ} (b : FVec Ideal ⟨1, ![1]⟩ .f32)
    (h1 : (⟨1, ![1]⟩ : Shape).BroadcastsInDim ⟨2, ![1, 1]⟩ ![1])
    (h2 : (⟨2, ![1, 1]⟩ : Shape).BroadcastsInDim ⟨2, ![a, 1]⟩ ![0, 1]) (p : Fin a) (z : Fin 1) :
    broadcastInDim ⟨2, ![a, 1]⟩ ![0, 1] h2 (broadcastInDim ⟨2, ![1, 1]⟩ ![1] h1 b) (ix2 p z) = b (ix1 0) := by
  refine (broadcastInDim_apply _ _ _ (ix2 p z) (ix2 (0 : Fin 1) (0 : Fin 1)) fun ax => ?_).trans ?_
  · match ax with
    | ⟨0, _⟩ => rfl
    | ⟨1, _⟩ => rfl
  · exact broadcastInDim_apply _ _ _ (ix2 (0 : Fin 1) (0 : Fin 1)) (ix1 (0 : Fin 1)) fun ax => (match ax with | ⟨0, _⟩ => rfl)

/-- Each graph's row against the output column, plus the output bias, at `(g, 0)`. -/
theorem readout_apply (P : Arr Ideal S2048x64 .f32) (w : Arr Ideal S64x1 .f32) (b : Arr Ideal S1 .f32) (g : Fin 2048) (z : Fin 1) :
    readout P w b (ix2 g z) = (∑ k : Fin 64, P (ix2 g k) * w (ix2 k 0)) + b (ix1 0) := by
  obtain rfl : z = 0 := Subsingleton.elim _ _
  unfold readout
  refine (addf_apply _ _ (ix2 g 0)).trans ?_
  refine congrArg₂ (fun u v : EReal => u + v) ?_ ?_
  · exact dotPlain_apply dot_S2048x64_S64x1_S2048x1_1_0_0_1_n_n rfl none P w g 0
  · exact biasColumn_apply b _ _ g 0

/-! ## The gated rows -/

/-- A node's affine score at `(p, 0)`: its row against the weight column, plus the bias. -/
theorem affine_apply (h : Arr Ideal S100000x64 .f32) (w : Arr Ideal S64x1 .f32) (b : Arr Ideal S1 .f32) (p : Fin 100000) :
    affine h w b (ix2 p (0 : Fin 1)) = (∑ k : Fin 64, h (ix2 p k) * w (ix2 k 0)) + b (ix1 0) := by
  unfold affine
  refine (addf_apply _ _ (ix2 p (0 : Fin 1))).trans ?_
  refine congrArg₂ (fun u v : EReal => u + v) ?_ ?_
  · exact dotPlain_apply dot_S100000x64_S64x1_S100000x1_1_0_0_1_n_n rfl none h w p 0
  · exact biasColumn_apply b _ _ p 0

/-- The scalar whose word is that of the float one, repeated over any shape, reads `1` everywhere. -/
theorem oneSplat_apply {T : Shape} (hb : (⟨0, ![]⟩ : Shape).BroadcastsInDim T ![]) (j : T.Idx) :
    broadcastInDim T ![] hb (constant (F := Ideal) ⟨0, ![]⟩ .f32 0x3F800000#32) j = 1 :=
  (broadcastInDim_scalar_apply hb _ j).trans ((constant_apply _ _).trans Ideal.ofBits_one_f32)

/-- The quotient `1 / (1 + exp (−s))` spelt with the host's operations over a whole array is, entry by entry, the
    logistic of `s`'s entry. -/
theorem hostLogistic_apply {T : Shape} (hb hb' : (⟨0, ![]⟩ : Shape).BroadcastsInDim T ![]) (s : FVec Ideal T .f32) (j : T.Idx) :
    Host.divf (broadcastInDim T ![] hb (constant (F := Ideal) ⟨0, ![]⟩ .f32 0x3F800000#32))
        (addf (broadcastInDim T ![] hb' (constant (F := Ideal) ⟨0, ![]⟩ .f32 0x3F800000#32)) (Host.exp (Host.negf s))) j
      = Ideal.logistic (s j) := by
  refine (hostDivf_apply _ _ j).trans ?_
  unfold Ideal.logistic
  refine congrArg₂ Ideal.div (oneSplat_apply hb j) ?_
  refine (addf_apply _ _ j).trans ?_
  exact congrArg (fun u : EReal => u + Ideal.exp (-(s j))) (oneSplat_apply hb' j)

/-- Each node's row scaled by its first score times the logistic of its second, at `(p, q)`. -/
theorem gated_apply (h : Arr Ideal S100000x64 .f32) (aw : Arr Ideal S64x1 .f32) (ab : Arr Ideal S1 .f32)
    (mw : Arr Ideal S64x1 .f32) (mb : Arr Ideal S1 .f32) (p : Fin 100000) (q : Fin 64) :
    gated h aw ab mw mb (ix2 p q)
      = h (ix2 p q) * (((∑ k : Fin 64, h (ix2 p k) * aw (ix2 k 0)) + ab (ix1 0))
          * Ideal.logistic ((∑ k : Fin 64, h (ix2 p k) * mw (ix2 k 0)) + mb (ix1 0))) := by
  unfold gated
  refine (mulf_apply _ _ (ix2 p q)).trans ?_
  refine congrArg (fun u : EReal => h (ix2 p q) * u) ?_
  -- the gated score column repeated along the row reads its entry (p, 0)
  refine (broadcastInDim_apply _ _ _ (ix2 p q) (ix2 p (0 : Fin 1)) fun ax => ?_).trans ?_
  · match ax with
    | ⟨0, _⟩ => rfl
    | ⟨1, _⟩ => rfl
  refine (mulf_apply _ _ (ix2 p (0 : Fin 1))).trans ?_
  refine congrArg₂ (fun u v : EReal => u * v) (affine_apply h aw ab p) ?_
  refine (hostLogistic_apply _ _ (affine h mw mb) (ix2 p (0 : Fin 1))).trans ?_
  exact congrArg Ideal.logistic (affine_apply h mw mb p)

end Cert.ReferenceIdeal.DenseAt
-- ==== Proof.Reshapes.lean ====
/-
  Three reshapes read at an entry.

  A reshape keeps the row-major order of the entries.  So a length-64 vector viewed as a 1×64 row reads, at (0, q), the
  vector's entry q; a 64×1 column viewed as a 1×64 row reads, at (0, k), the column's entry (k, 0); and a one-entry
  vector viewed as a 1×1 array reads that entry.
-/
import proofs.«176435_j26233660244215_1_alg».proof.Proof.Gen.KernelIdeal
import Idealize.ShloMosaic.Lib.ValueIdx
import Idealize.ShloMosaic.Lib.Pipeline.Value
import Idealize.ShloMosaic.Lib.ValueLayout

namespace Cert.KernelIdeal.Reshapes

open Cert.KernelIdeal Cert.KernelIdeal.Gen Idealize.ShloMosaic Idealize.ShloMosaic.ValueIdx

variable {α : Type}

/-- A length-64 vector viewed as a 1×64 row reads, at `(0, q)`, the vector's entry `q`. -/
theorem vector_row_apply (b : S64.Idx → α) (q : Fin 64) :
    shapeCast S1x64 b shapeCasts_S64_S1x64 (ix2 0 q) = b (ix1 q) :=
  shapeCast_a_1a_apply b shapeCasts_S64_S1x64 0 q

/-- A 64×1 column viewed as a 1×64 row reads, at `(0, k)`, the column's entry `(k, 0)`: both sit at row-major
    position `k`. -/
theorem column_row_apply (w : S64x1.Idx → α) (k : Fin 64) :
    shapeCast S1x64 w shapeCasts_S64x1_S1x64 (ix2 0 k) = w (ix2 k 0) :=
  shapeCast_apply w shapeCasts_S64x1_S1x64 (ix2 (0 : Fin 1) k) (ix2 k (0 : Fin 1)) (by
    rw [Shape.rowMajor_val_two, Shape.rowMajor_val_two]
    show k.val * 1 + 0 = 0 * 64 + k.val
    omega)

/-- A one-entry vector viewed as a 1×1 array reads that entry. -/
theorem scalar_cell_apply (s : S1.Idx → α) :
    shapeCast S1x1 s shapeCasts_S1_S1x1 (ix2 0 0) = s (ix1 0) :=
  shapeCast_a_1a_apply s shapeCasts_S1_S1x1 0 0

end Cert.KernelIdeal.Reshapes
-- ==== Proof.Bridge.lean ====
/-
  Tiled results and dense stages are the same arrays.

  Each tiled region was shown to leave, entry by entry, an explicit formula in the arrays it read: a sum of
  products for the two projections, a clamped sum for the two bias steps, a row scaled by its gated score, a dot
  product plus a bias for the read-out.  The dense stages of the network read, at an entry, the same formulas.
  The regions read biases and weight columns through reshaped copies (a length-64 vector as a 1×64 row, a 64×1
  column as a 1×64 row, a length-1 vector as a 1×1 entry); a reshape keeps every entry, only renaming its index.
-/
import proofs.«176435_j26233660244215_1_alg».proof.Proof.Region0
import proofs.«176435_j26233660244215_1_alg».proof.Proof.Region1
import proofs.«176435_j26233660244215_1_alg».proof.Proof.Region2
import proofs.«176435_j26233660244215_1_alg».proof.Proof.Region3
import proofs.«176435_j26233660244215_1_alg».proof.Proof.Region4
import proofs.«176435_j26233660244215_1_alg».proof.Proof.Region5
import proofs.«176435_j26233660244215_1_alg».proof.Proof.DenseAt
import proofs.«176435_j26233660244215_1_alg».proof.Proof.Reshapes

set_option maxRecDepth 16384

noncomputable section

namespace Cert.KernelIdeal.Bridge

open Cert.KernelIdeal Cert.KernelIdeal.Gen Idealize.ShloMosaic Idealize.ShloMosaic.ValueIdx

/-- The first projection. -/
theorem dense1_eq (x : S100000x128.Idx → Elt Ideal .f32) (w : S128x64.Idx → Elt Ideal .f32) :
    Region0.dense x w = Cert.ReferenceIdeal.Stages.project1 x w := by
  funext i
  obtain ⟨p, n, rfl⟩ : ∃ (p : Fin 100000) (n : Fin 64), i = ix2 p n := ⟨i 0, i 1, eq_ix2 i⟩
  exact (Cert.ReferenceIdeal.DenseAt.project1_apply x w p n).symm

/-- The second projection. -/
theorem dense2_eq (h : S100000x64.Idx → Elt Ideal .f32) (w : S64x64.Idx → Elt Ideal .f32) :
    Region2.dense h w = Cert.ReferenceIdeal.Stages.project2 h w := by
  funext i
  obtain ⟨p, n, rfl⟩ : ∃ (p : Fin 100000) (n : Fin 64), i = ix2 p n := ⟨i 0, i 1, eq_ix2 i⟩
  exact (Cert.ReferenceIdeal.DenseAt.project2_apply h w p n).symm

/-- The first bias and clamp. -/
theorem biased1_eq (a : S100000x64.Idx → Elt Ideal .f32) (b : S64.Idx → Elt Ideal .f32) :
    Region1.biased a (shapeCast S1x64 b shapeCasts_S64_S1x64) = Cert.ReferenceIdeal.Stages.biasRelu a b := by
  funext i
  obtain ⟨p, q, rfl⟩ : ∃ (p : Fin 100000) (q : Fin 64), i = ix2 p q := ⟨i 0, i 1, eq_ix2 i⟩
  refine Eq.trans ?_ (Cert.ReferenceIdeal.DenseAt.biasRelu_apply a b p q).symm
  show max (a (ix2 p q) + shapeCast S1x64 b shapeCasts_S64_S1x64 (ix2 0 q)) _ = _
  rw [Reshapes.vector_row_apply b q]

/-- The second bias and clamp. -/
theorem biased2_eq (a : S100000x64.Idx → Elt Ideal .f32) (b : S64.Idx → Elt Ideal .f32) :
    Region3.biased a (shapeCast S1x64 b shapeCasts_S64_S1x64) = Cert.ReferenceIdeal.Stages.biasRelu a b := by
  funext i
  obtain ⟨p, q, rfl⟩ : ∃ (p : Fin 100000) (q : Fin 64), i = ix2 p q := ⟨i 0, i 1, eq_ix2 i⟩
  refine Eq.trans ?_ (Cert.ReferenceIdeal.DenseAt.biasRelu_apply a b p q).symm
  show max (a (ix2 p q) + shapeCast S1x64 b shapeCasts_S64_S1x64 (ix2 0 q)) _ = _
  rw [Reshapes.vector_row_apply b q]

/-- The rows scaled by their gated scores. -/
theorem scored_eq (h : S100000x64.Idx → Elt Ideal .f32) (aw : S64x1.Idx → Elt Ideal .f32) (ab : S1.Idx → Elt Ideal .f32)
    (mw : S64x1.Idx → Elt Ideal .f32) (mb : S1.Idx → Elt Ideal .f32) :
    Region4.scored h (shapeCast S1x64 aw shapeCasts_S64x1_S1x64) (shapeCast S1x1 ab shapeCasts_S1_S1x1)
      (shapeCast S1x64 mw shapeCasts_S64x1_S1x64) (shapeCast S1x1 mb shapeCasts_S1_S1x1)
      = Cert.ReferenceIdeal.Stages.gated h aw ab mw mb := by
  funext i
  obtain ⟨p, q, rfl⟩ : ∃ (p : Fin 100000) (q : Fin 64), i = ix2 p q := ⟨i 0, i 1, eq_ix2 i⟩
  refine Eq.trans ?_ (Cert.ReferenceIdeal.DenseAt.gated_apply h aw ab mw mb p q).symm
  show h (ix2 p q) * (((∑ k : Fin 64, h (ix2 p k) * shapeCast S1x64 aw shapeCasts_S64x1_S1x64 (ix2 0 k)) + shapeCast S1x1 ab shapeCasts_S1_S1x1 (ix2 0 0))
    * Ideal.logistic ((∑ k : Fin 64, h (ix2 p k) * shapeCast S1x64 mw shapeCasts_S64x1_S1x64 (ix2 0 k)) + shapeCast S1x1 mb shapeCasts_S1_S1x1 (ix2 0 0))) = _
  simp only [Reshapes.column_row_apply, Reshapes.scalar_cell_apply]

/-- The read-out. -/
theorem projected_eq (P : S2048x64.Idx → Elt Ideal .f32) (w : S64x1.Idx → Elt Ideal .f32) (b : S1.Idx → Elt Ideal .f32) :
    Region5.projected P (shapeCast S1x64 w shapeCasts_S64x1_S1x64) (shapeCast S1x1 b shapeCasts_S1_S1x1)
      = Cert.ReferenceIdeal.Stages.readout P w b := by
  funext i
  obtain ⟨g, z, rfl⟩ : ∃ (g : Fin 2048) (z : Fin 1), i = ix2 g z := ⟨i 0, i 1, eq_ix2 i⟩
  refine Eq.trans ?_ (Cert.ReferenceIdeal.DenseAt.readout_apply P w b g z).symm
  show (∑ k : Fin 64, P (ix2 g k) * shapeCast S1x64 w shapeCasts_S64x1_S1x64 (ix2 0 k)) + shapeCast S1x1 b shapeCasts_S1_S1x1 (ix2 0 0) = _
  simp only [Reshapes.column_row_apply, Reshapes.scalar_cell_apply]

end Cert.KernelIdeal.Bridge

end
-- ==== Proof.KChain.lean ====
/-
  The idealized kernel's run, boundary by boundary, is the network.

  At each boundary of the run one more buffer is identified with a stage function of the argument arrays: the
  first projection after the first region; the aggregated rows after the next stretch of host operations (the
  same gather, scaling and scatter-sum the reference performs, on the same edge buffers); the clamped rows after
  the second region; and so on through the second layer, the gated scores, the per-graph sums and the read-out.
  A region contributes its tiled result, already known to be the dense stage entry by entry; a stretch of host
  operations contributes its operations applied to buffers identified earlier.
-/
import proofs.«176435_j26233660244215_1_alg».proof.Proof.KStay
import proofs.«176435_j26233660244215_1_alg».proof.Proof.KPrefix
import proofs.«176435_j26233660244215_1_alg».proof.Proof.Bridge

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- After the first region: the first projection. -/
theorem projection1 (c : Dev nD) : W4 m ρ c (Proc.devRef .tc main_v32) = (Cert.ReferenceIdeal.Stages.project1 (m ((c : Thread nD τ).loc main_arg0)) (m ((c : Thread nD τ).loc main_arg3))) := by
  refine (W4_arr m ρ c 2).trans ((Region0.array_eq (V3 m ρ) c).trans ?_)
  have e0 : V3 m ρ c main_arg0 = (m ((c : Thread nD τ).loc main_arg0)) := (Stay.keep_main_arg0_3_0 m ρ c)
  have e1 : V3 m ρ c main_arg3 = (m ((c : Thread nD τ).loc main_arg3)) := (Stay.keep_main_arg3_3_0 m ρ c)
  rw [e0, e1]
  exact Bridge.dense1_eq _ _

set_option maxHeartbeats 4000000 in
/-- After the next stretch: the first layer's aggregated rows. -/
theorem aggregated1 (c : Dev nD) : W5 m ρ c (Proc.devRef .tc main_v45) = (Cert.ReferenceIdeal.Stages.aggregate (m ((c : Thread nD τ).loc main_arg1)) (Cert.ReferenceIdeal.Stages.project1 (m ((c : Thread nD τ).loc main_arg0)) (m ((c : Thread nD τ).loc main_arg3)))) := by
  show after hostOps1 (W4 m ρ c) (Proc.devRef .tc main_v45) = _
  after_results_simp
  rw [Stay.keep_main_v3_4_3 m ρ c, Prefix.sources m ρ c, Stay.keep_main_v6_4_3 m ρ c, Prefix.targets m ρ c,
    Stay.keep_main_v31_4_3 m ρ c, Prefix.weights m ρ c, projection1 m ρ c]
  rfl

/-- The first bias, as the row the region reads. -/
theorem biasRow1 (c : Dev nD) : W5 m ρ c (Proc.devRef .tc main_v46) = shapeCast S1x64 (m ((c : Thread nD τ).loc main_arg4)) shapeCasts_S64_S1x64 := by
  show after hostOps1 (W4 m ρ c) (Proc.devRef .tc main_v46) = _
  after_results_simp
  rw [Stay.keep_main_arg4_4_0 m ρ c]
  rfl

/-- After the second region: the first layer's output. -/
theorem layer1 (c : Dev nD) : W6 m ρ c (Proc.devRef .tc main_v47) = (Cert.ReferenceIdeal.Stages.biasRelu (Cert.ReferenceIdeal.Stages.aggregate (m ((c : Thread nD τ).loc main_arg1)) (Cert.ReferenceIdeal.Stages.project1 (m ((c : Thread nD τ).loc main_arg0)) (m ((c : Thread nD τ).loc main_arg3)))) (m ((c : Thread nD τ).loc main_arg4))) := by
  refine (W6_arr m ρ c 2).trans ((Region1.array_eq (V5 m ρ) c).trans ?_)
  have e0 : V5 m ρ c main_v45 = (Cert.ReferenceIdeal.Stages.aggregate (m ((c : Thread nD τ).loc main_arg1)) (Cert.ReferenceIdeal.Stages.project1 (m ((c : Thread nD τ).loc main_arg0)) (m ((c : Thread nD τ).loc main_arg3)))) := aggregated1 m ρ c
  have e1 : V5 m ρ c main_v46 = shapeCast S1x64 (m ((c : Thread nD τ).loc main_arg4)) shapeCasts_S64_S1x64 := biasRow1 m ρ c
  rw [e0, e1]
  exact Bridge.biased1_eq _ _

/-- After the third region: the second projection. -/
theorem projection2 (c : Dev nD) : W7 m ρ c (Proc.devRef .tc main_v48) = (Cert.ReferenceIdeal.Stages.project2 (Cert.ReferenceIdeal.Stages.biasRelu (Cert.ReferenceIdeal.Stages.aggregate (m ((c : Thread nD τ).loc main_arg1)) (Cert.ReferenceIdeal.Stages.project1 (m ((c : Thread nD τ).loc main_arg0)) (m ((c : Thread nD τ).loc main_arg3)))) (m ((c : Thread nD τ).loc main_arg4))) (m ((c : Thread nD τ).loc main_arg5))) := by
  refine (W7_arr m ρ c 2).trans ((Region2.array_eq (V6 m ρ) c).trans ?_)
  have e0 : V6 m ρ c main_v47 = (Cert.ReferenceIdeal.Stages.biasRelu (Cert.ReferenceIdeal.Stages.aggregate (m ((c : Thread nD τ).loc main_arg1)) (Cert.ReferenceIdeal.Stages.project1 (m ((c : Thread nD τ).loc main_arg0)) (m ((c : Thread nD τ).loc main_arg3)))) (m ((c : Thread nD τ).loc main_arg4))) := layer1 m ρ c
  have e1 : V6 m ρ c main_arg5 = (m ((c : Thread nD τ).loc main_arg5)) := (Stay.keep_main_arg5_6_0 m ρ c)
  rw [e0, e1]
  exact Bridge.dense2_eq _ _

set_option maxHeartbeats 4000000 in
/-- After the next stretch: the second layer's aggregated rows. -/
theorem aggregated2 (c : Dev nD) : W8 m ρ c (Proc.devRef .tc main_v61) = (Cert.ReferenceIdeal.Stages.aggregate (m ((c : Thread nD τ).loc main_arg1)) (Cert.ReferenceIdeal.Stages.project2 (Cert.ReferenceIdeal.Stages.biasRelu (Cert.ReferenceIdeal.Stages.aggregate (m ((c : Thread nD τ).loc main_arg1)) (Cert.ReferenceIdeal.Stages.project1 (m ((c : Thread nD τ).loc main_arg0)) (m ((c : Thread nD τ).loc main_arg3)))) (m ((c : Thread nD τ).loc main_arg4))) (m ((c : Thread nD τ).loc main_arg5)))) := by
  show after hostOps3 (W7 m ρ c) (Proc.devRef .tc main_v61) = _
  after_results_simp
  rw [Stay.keep_main_v3_7_3 m ρ c, Prefix.sources m ρ c, Stay.keep_main_v6_7_3 m ρ c, Prefix.targets m ρ c,
    Stay.keep_main_v31_7_3 m ρ c, Prefix.weights m ρ c, projection2 m ρ c]
  rfl

/-- The second bias, as the row the region reads. -/
theorem biasRow2 (c : Dev nD) : W8 m ρ c (Proc.devRef .tc main_v62) = shapeCast S1x64 (m ((c : Thread nD τ).loc main_arg6)) shapeCasts_S64_S1x64 := by
  show after hostOps3 (W7 m ρ c) (Proc.devRef .tc main_v62) = _
  after_results_simp
  rw [Stay.keep_main_arg6_7_0 m ρ c]
  rfl

/-- After the fourth region: the second layer's output. -/
theorem layer2 (c : Dev nD) : W9 m ρ c (Proc.devRef .tc main_v63) = (Cert.ReferenceIdeal.Stages.biasRelu (Cert.ReferenceIdeal.Stages.aggregate (m ((c : Thread nD τ).loc main_arg1)) (Cert.ReferenceIdeal.Stages.project2 (Cert.ReferenceIdeal.Stages.biasRelu (Cert.ReferenceIdeal.Stages.aggregate (m ((c : Thread nD τ).loc main_arg1)) (Cert.ReferenceIdeal.Stages.project1 (m ((c : Thread nD τ).loc main_arg0)) (m ((c : Thread nD τ).loc main_arg3)))) (m ((c : Thread nD τ).loc main_arg4))) (m ((c : Thread nD τ).loc main_arg5)))) (m ((c : Thread nD τ).loc main_arg6))) := by
  refine (W9_arr m ρ c 2).trans ((Region3.array_eq (V8 m ρ) c).trans ?_)
  have e0 : V8 m ρ c main_v61 = (Cert.ReferenceIdeal.Stages.aggregate (m ((c : Thread nD τ).loc main_arg1)) (Cert.ReferenceIdeal.Stages.project2 (Cert.ReferenceIdeal.Stages.biasRelu (Cert.ReferenceIdeal.Stages.aggregate (m ((c : Thread nD τ).loc main_arg1)) (Cert.ReferenceIdeal.Stages.project1 (m ((c : Thread nD τ).loc main_arg0)) (m ((c : Thread nD τ).loc main_arg3)))) (m ((c : Thread nD τ).loc main_arg4))) (m ((c : Thread nD τ).loc main_arg5)))) := aggregated2 m ρ c
  have e1 : V8 m ρ c main_v62 = shapeCast S1x64 (m ((c : Thread nD τ).loc main_arg6)) shapeCasts_S64_S1x64 := biasRow2 m ρ c
  rw [e0, e1]
  exact Bridge.biased2_eq _ _

/-- The attention weights, as the row the fifth region reads. -/
theorem attnRow (c : Dev nD) : W10 m ρ c (Proc.devRef .tc main_v64) = shapeCast S1x64 (m ((c : Thread nD τ).loc main_arg7)) shapeCasts_S64x1_S1x64 := by
  show after hostOps4 (W9 m ρ c) (Proc.devRef .tc main_v64) = _
  after_results_simp
  rw [Stay.keep_main_arg7_9_0 m ρ c]
  rfl

/-- The mask weights, as the row the fifth region reads. -/
theorem maskRow (c : Dev nD) : W10 m ρ c (Proc.devRef .tc main_v65) = shapeCast S1x64 (m ((c : Thread nD τ).loc main_arg9)) shapeCasts_S64x1_S1x64 := by
  show after hostOps4 (W9 m ρ c) (Proc.devRef .tc main_v65) = _
  after_results_simp
  rw [Stay.keep_main_arg9_9_0 m ρ c]
  rfl

/-- The attention bias, as the entry the fifth region reads. -/
theorem attnBias (c : Dev nD) : W10 m ρ c (Proc.devRef .tc main_v66) = shapeCast S1x1 (m ((c : Thread nD τ).loc main_arg8)) shapeCasts_S1_S1x1 := by
  show after hostOps4 (W9 m ρ c) (Proc.devRef .tc main_v66) = _
  after_results_simp
  rw [Stay.keep_main_arg8_9_0 m ρ c]
  rfl

/-- The mask bias, as the entry the fifth region reads. -/
theorem maskBias (c : Dev nD) : W10 m ρ c (Proc.devRef .tc main_v67) = shapeCast S1x1 (m ((c : Thread nD τ).loc main_arg10)) shapeCasts_S1_S1x1 := by
  show after hostOps4 (W9 m ρ c) (Proc.devRef .tc main_v67) = _
  after_results_simp
  rw [Stay.keep_main_arg10_9_0 m ρ c]
  rfl

/-- After the fifth region: the rows scaled by their gated scores. -/
theorem scaled (c : Dev nD) : W11 m ρ c (Proc.devRef .tc main_v68) = (Cert.ReferenceIdeal.Stages.gated (Cert.ReferenceIdeal.Stages.biasRelu (Cert.ReferenceIdeal.Stages.aggregate (m ((c : Thread nD τ).loc main_arg1)) (Cert.ReferenceIdeal.Stages.project2 (Cert.ReferenceIdeal.Stages.biasRelu (Cert.ReferenceIdeal.Stages.aggregate (m ((c : Thread nD τ).loc main_arg1)) (Cert.ReferenceIdeal.Stages.project1 (m ((c : Thread nD τ).loc main_arg0)) (m ((c : Thread nD τ).loc main_arg3)))) (m ((c : Thread nD τ).loc main_arg4))) (m ((c : Thread nD τ).loc main_arg5)))) (m ((c : Thread nD τ).loc main_arg6))) (m ((c : Thread nD τ).loc main_arg7)) (m ((c : Thread nD τ).loc main_arg8)) (m ((c : Thread nD τ).loc main_arg9)) (m ((c : Thread nD τ).loc main_arg10))) := by
  refine (W11_arr m ρ c 5).trans ((Region4.array_eq (V10 m ρ) c).trans ?_)
  have e0 : V10 m ρ c main_v63 = (Cert.ReferenceIdeal.Stages.biasRelu (Cert.ReferenceIdeal.Stages.aggregate (m ((c : Thread nD τ).loc main_arg1)) (Cert.ReferenceIdeal.Stages.project2 (Cert.ReferenceIdeal.Stages.biasRelu (Cert.ReferenceIdeal.Stages.aggregate (m ((c : Thread nD τ).loc main_arg1)) (Cert.ReferenceIdeal.Stages.project1 (m ((c : Thread nD τ).loc main_arg0)) (m ((c : Thread nD τ).loc main_arg3)))) (m ((c : Thread nD τ).loc main_arg4))) (m ((c : Thread nD τ).loc main_arg5)))) (m ((c : Thread nD τ).loc main_arg6))) := (Stay.keep_main_v63_10_9 m ρ c).trans (layer2 m ρ c)
  have e1 : V10 m ρ c main_v64 = shapeCast S1x64 (m ((c : Thread nD τ).loc main_arg7)) shapeCasts_S64x1_S1x64 := attnRow m ρ c
  have e2 : V10 m ρ c main_v66 = shapeCast S1x1 (m ((c : Thread nD τ).loc main_arg8)) shapeCasts_S1_S1x1 := attnBias m ρ c
  have e3 : V10 m ρ c main_v65 = shapeCast S1x64 (m ((c : Thread nD τ).loc main_arg9)) shapeCasts_S64x1_S1x64 := maskRow m ρ c
  have e4 : V10 m ρ c main_v67 = shapeCast S1x1 (m ((c : Thread nD τ).loc main_arg10)) shapeCasts_S1_S1x1 := maskBias m ρ c
  rw [e0, e1, e2, e3, e4]
  exact Bridge.scored_eq _ _ _ _ _

/-- After the last stretch: the per-graph sums. -/
theorem summed (c : Dev nD) : W12 m ρ c (Proc.devRef .tc main_v71) = (Cert.ReferenceIdeal.Stages.pooled (m ((c : Thread nD τ).loc main_arg2)) (Cert.ReferenceIdeal.Stages.gated (Cert.ReferenceIdeal.Stages.biasRelu (Cert.ReferenceIdeal.Stages.aggregate (m ((c : Thread nD τ).loc main_arg1)) (Cert.ReferenceIdeal.Stages.project2 (Cert.ReferenceIdeal.Stages.biasRelu (Cert.ReferenceIdeal.Stages.aggregate (m ((c : Thread nD τ).loc main_arg1)) (Cert.ReferenceIdeal.Stages.project1 (m ((c : Thread nD τ).loc main_arg0)) (m ((c : Thread nD τ).loc main_arg3)))) (m ((c : Thread nD τ).loc main_arg4))) (m ((c : Thread nD τ).loc main_arg5)))) (m ((c : Thread nD τ).loc main_arg6))) (m ((c : Thread nD τ).loc main_arg7)) (m ((c : Thread nD τ).loc main_arg8)) (m ((c : Thread nD τ).loc main_arg9)) (m ((c : Thread nD τ).loc main_arg10)))) := by
  show after hostOps5 (W11 m ρ c) (Proc.devRef .tc main_v71) = _
  after_results_simp
  rw [Stay.keep_main_arg2_11_0 m ρ c, scaled m ρ c]
  rfl

/-- The output weights, as the row the last region reads. -/
theorem outRow (c : Dev nD) : W12 m ρ c (Proc.devRef .tc main_v72) = shapeCast S1x64 (m ((c : Thread nD τ).loc main_arg11)) shapeCasts_S64x1_S1x64 := by
  show after hostOps5 (W11 m ρ c) (Proc.devRef .tc main_v72) = _
  after_results_simp
  rw [Stay.keep_main_arg11_11_0 m ρ c]
  rfl

/-- The output bias, as the entry the last region reads. -/
theorem outBias (c : Dev nD) : W12 m ρ c (Proc.devRef .tc main_v73) = shapeCast S1x1 (m ((c : Thread nD τ).loc main_arg12)) shapeCasts_S1_S1x1 := by
  show after hostOps5 (W11 m ρ c) (Proc.devRef .tc main_v73) = _
  after_results_simp
  rw [Stay.keep_main_arg12_11_0 m ρ c]
  rfl

/-- After the last region: the result buffer holds the network of the argument arrays. -/
theorem result (c : Dev nD) : W13 m ρ c (Proc.devRef .tc main_v74)
    = Cert.ReferenceIdeal.Stages.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W13_arr m ρ c 3).trans ((Region5.array_eq (V12 m ρ) c).trans ?_)
  have e0 : V12 m ρ c main_v71 = (Cert.ReferenceIdeal.Stages.pooled (m ((c : Thread nD τ).loc main_arg2)) (Cert.ReferenceIdeal.Stages.gated (Cert.ReferenceIdeal.Stages.biasRelu (Cert.ReferenceIdeal.Stages.aggregate (m ((c : Thread nD τ).loc main_arg1)) (Cert.ReferenceIdeal.Stages.project2 (Cert.ReferenceIdeal.Stages.biasRelu (Cert.ReferenceIdeal.Stages.aggregate (m ((c : Thread nD τ).loc main_arg1)) (Cert.ReferenceIdeal.Stages.project1 (m ((c : Thread nD τ).loc main_arg0)) (m ((c : Thread nD τ).loc main_arg3)))) (m ((c : Thread nD τ).loc main_arg4))) (m ((c : Thread nD τ).loc main_arg5)))) (m ((c : Thread nD τ).loc main_arg6))) (m ((c : Thread nD τ).loc main_arg7)) (m ((c : Thread nD τ).loc main_arg8)) (m ((c : Thread nD τ).loc main_arg9)) (m ((c : Thread nD τ).loc main_arg10)))) := summed m ρ c
  have e1 : V12 m ρ c main_v72 = shapeCast S1x64 (m ((c : Thread nD τ).loc main_arg11)) shapeCasts_S64x1_S1x64 := outRow m ρ c
  have e2 : V12 m ρ c main_v73 = shapeCast S1x1 (m ((c : Thread nD τ).loc main_arg12)) shapeCasts_S1_S1x1 := outBias m ρ c
  rw [e0, e1, e2]
  exact Bridge.projected_eq _ _ _

end Cert.KernelIdeal.Chain

end
-- ==== Proof.RefRun.lean ====
/-
  The reference program's run.

  The reference is a straight line of host operations on whole arrays.  Every weakly fair execution of it
  terminates, and each buffer then holds what folding the operations, in order, over the launch memory puts
  there.  Read at the result buffer, that fold is the network of the stage functions applied to the thirteen
  argument arrays; the arguments themselves are never written.
-/
import proofs.«176435_j26233660244215_1_alg».proof.Proof.Gen.ReferenceIdeal
import proofs.«176435_j26233660244215_1_alg».proof.Proof.Stages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 116 operations, in order (a called function's operations stand in its call's place, spelt `TRef.…`). -/
abbrev ops : List (HloOp τ sig (Elt F)) :=
  [ nullary main_v0 (iotaInDim S100000 32 0),
    unary main_arg1 main_v1 ((extractStridedSlice S1x1000000 ![0, 0] · slices_S2x1000000_S1x1000000_0_0) : (⟨S2x1000000, .i32⟩ : BufTy).Contents (Elt F) → (⟨S1x1000000, .i32⟩ : BufTy).Contents (Elt F)),
    reshape main_v1 main_v2 rfl shapeCasts_S1x1000000_S1000000,
    binary main_v2 main_v0 main_v3 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    unary main_arg1 main_v4 ((extractStridedSlice S1x1000000 ![1, 0] · slices_S2x1000000_S1x1000000_1_0) : (⟨S2x1000000, .i32⟩ : BufTy).Contents (Elt F) → (⟨S1x1000000, .i32⟩ : BufTy).Contents (Elt F)),
    reshape main_v4 main_v5 rfl shapeCasts_S1x1000000_S1000000,
    binary main_v5 main_v0 main_v6 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    nullary main_cst (constant S_ .f32 0x3F800000#32),
    unary main_cst main_v7 (broadcastInDim S1100000 ![] bcast_S_S1100000 : (⟨S_, .f32⟩ : BufTy).Contents (Elt F) → (⟨S1100000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1100000x1 ![0] bcast_S1100000_S1100000x1_0 : (⟨S1100000, .i32⟩ : BufTy).Contents (Elt F) → (⟨S1100000x1, .i32⟩ : BufTy).Contents (Elt F)),
    ternary main_v8 main_v9 main_v7 main_v10 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1100000 ![] bcast_S_S1100000 : (⟨S_, .i32⟩ : BufTy).Contents (Elt F) → (⟨S1100000, .i32⟩ : BufTy).Contents (Elt F)),
    binary main_v3 main_v17 main_v18 (cmpi .slt : (⟨S1100000, .i32⟩ : BufTy).Contents (Elt F) → (⟨S1100000, .i32⟩ : BufTy).Contents (Elt F) → (⟨S1100000, .i1⟩ : BufTy).Contents (Elt F)),
    nullary main_c_4 (constantI S_ 32 100000#32),
    unary main_c_4 main_v19 (broadcastInDim S1100000 ![] bcast_S_S1100000 : (⟨S_, .i32⟩ : BufTy).Contents (Elt F) → (⟨S1100000, .i32⟩ : BufTy).Contents (Elt F)),
    binary main_v3 main_v19 main_v20 (addi : (⟨S1100000, .i32⟩ : BufTy).Contents (Elt F) → (⟨S1100000, .i32⟩ : BufTy).Contents (Elt F) → (⟨S1100000, .i32⟩ : BufTy).Contents (Elt F)),
    ternary main_v18 main_v20 main_v3 main_v21 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v21 main_v22 (broadcastInDim S1100000x1 ![0] bcast_S1100000_S1100000x1_0 : (⟨S1100000, .i32⟩ : BufTy).Contents (Elt F) → (⟨S1100000x1, .i32⟩ : BufTy).Contents (Elt F)),
    binary main_v16 main_v22 main_v23 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    nullary main_c_5 (constantI S_ 32 0#32),
    unary main_c_5 main_v24 (broadcastInDim S1100000 ![] bcast_S_S1100000 : (⟨S_, .i32⟩ : BufTy).Contents (Elt F) → (⟨S1100000, .i32⟩ : BufTy).Contents (Elt F)),
    binary main_v6 main_v24 main_v25 (cmpi .slt : (⟨S1100000, .i32⟩ : BufTy).Contents (Elt F) → (⟨S1100000, .i32⟩ : BufTy).Contents (Elt F) → (⟨S1100000, .i1⟩ : BufTy).Contents (Elt F)),
    nullary main_c_6 (constantI S_ 32 100000#32),
    unary main_c_6 main_v26 (broadcastInDim S1100000 ![] bcast_S_S1100000 : (⟨S_, .i32⟩ : BufTy).Contents (Elt F) → (⟨S1100000, .i32⟩ : BufTy).Contents (Elt F)),
    binary main_v6 main_v26 main_v27 (addi : (⟨S1100000, .i32⟩ : BufTy).Contents (Elt F) → (⟨S1100000, .i32⟩ : BufTy).Contents (Elt F) → (⟨S1100000, .i32⟩ : BufTy).Contents (Elt F)),
    ternary main_v25 main_v27 main_v6 main_v28 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v28 main_v29 (broadcastInDim S1100000x1 ![0] bcast_S1100000_S1100000x1_0 : (⟨S1100000, .i32⟩ : BufTy).Contents (Elt F) → (⟨S1100000x1, .i32⟩ : BufTy).Contents (Elt F)),
    binary main_v16 main_v29 main_v30 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    binary main_v23 main_v30 main_v31 (mulf : (⟨S1100000, .f32⟩ : BufTy).Contents (Elt F) → (⟨S1100000, .f32⟩ : BufTy).Contents (Elt F) → (⟨S1100000, .f32⟩ : BufTy).Contents (Elt F)),
    binary main_arg0 main_arg3 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_7 (constantI S_ 32 0#32),
    unary main_c_7 main_v33 (broadcastInDim S1100000 ![] bcast_S_S1100000 : (⟨S_, .i32⟩ : BufTy).Contents (Elt F) → (⟨S1100000, .i32⟩ : BufTy).Contents (Elt F)),
    binary main_v3 main_v33 main_v34 (cmpi .slt : (⟨S1100000, .i32⟩ : BufTy).Contents (Elt F) → (⟨S1100000, .i32⟩ : BufTy).Contents (Elt F) → (⟨S1100000, .i1⟩ : BufTy).Contents (Elt F)),
    nullary main_c_8 (constantI S_ 32 100000#32),
    unary main_c_8 main_v35 (broadcastInDim S1100000 ![] bcast_S_S1100000 : (⟨S_, .i32⟩ : BufTy).Contents (Elt F) → (⟨S1100000, .i32⟩ : BufTy).Contents (Elt F)),
    binary main_v3 main_v35 main_v36 (addi : (⟨S1100000, .i32⟩ : BufTy).Contents (Elt F) → (⟨S1100000, .i32⟩ : BufTy).Contents (Elt F) → (⟨S1100000, .i32⟩ : BufTy).Contents (Elt F)),
    ternary main_v34 main_v36 main_v3 main_v37 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v37 main_v38 (broadcastInDim S1100000x1 ![0] bcast_S1100000_S1100000x1_0 : (⟨S1100000, .i32⟩ : BufTy).Contents (Elt F) → (⟨S1100000x1, .i32⟩ : BufTy).Contents (Elt F)),
    binary main_v32 main_v38 main_v39 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    unary main_v31 main_v40 (broadcastInDim S1100000x1 ![0] bcast_S1100000_S1100000x1_0 : (⟨S1100000, .f32⟩ : BufTy).Contents (Elt F) → (⟨S1100000x1, .f32⟩ : BufTy).Contents (Elt F)),
    unary main_v40 main_v41 (broadcastInDim S1100000x64 ![0, 1] bcast_S1100000x1_S1100000x64_0_1 : (⟨S1100000x1, .f32⟩ : BufTy).Contents (Elt F) → (⟨S1100000x64, .f32⟩ : BufTy).Contents (Elt F)),
    binary main_v39 main_v41 main_v42 (mulf : (⟨S1100000x64, .f32⟩ : BufTy).Contents (Elt F) → (⟨S1100000x64, .f32⟩ : BufTy).Contents (Elt F) → (⟨S1100000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S1100000x1 ![0] bcast_S1100000_S1100000x1_0 : (⟨S1100000, .i32⟩ : BufTy).Contents (Elt F) → (⟨S1100000x1, .i32⟩ : BufTy).Contents (Elt F)),
    ternary main_v43 main_v44 main_v42 main_v45 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)),
    unary main_arg4 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    binary main_v49 main_arg5 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_10 (constantI S_ 32 0#32),
    unary main_c_10 main_v51 (broadcastInDim S1100000 ![] bcast_S_S1100000 : (⟨S_, .i32⟩ : BufTy).Contents (Elt F) → (⟨S1100000, .i32⟩ : BufTy).Contents (Elt F)),
    binary main_v3 main_v51 main_v52 (cmpi .slt : (⟨S1100000, .i32⟩ : BufTy).Contents (Elt F) → (⟨S1100000, .i32⟩ : BufTy).Contents (Elt F) → (⟨S1100000, .i1⟩ : BufTy).Contents (Elt F)),
    nullary main_c_11 (constantI S_ 32 100000#32),
    unary main_c_11 main_v53 (broadcastInDim S1100000 ![] bcast_S_S1100000 : (⟨S_, .i32⟩ : BufTy).Contents (Elt F) → (⟨S1100000, .i32⟩ : BufTy).Contents (Elt F)),
    binary main_v3 main_v53 main_v54 (addi : (⟨S1100000, .i32⟩ : BufTy).Contents (Elt F) → (⟨S1100000, .i32⟩ : BufTy).Contents (Elt F) → (⟨S1100000, .i32⟩ : BufTy).Contents (Elt F)),
    ternary main_v52 main_v54 main_v3 main_v55 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v55 main_v56 (broadcastInDim S1100000x1 ![0] bcast_S1100000_S1100000x1_0 : (⟨S1100000, .i32⟩ : BufTy).Contents (Elt F) → (⟨S1100000x1, .i32⟩ : BufTy).Contents (Elt F)),
    binary main_v50 main_v56 main_v57 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    unary main_v31 main_v58 (broadcastInDim S1100000x1 ![0] bcast_S1100000_S1100000x1_0 : (⟨S1100000, .f32⟩ : BufTy).Contents (Elt F) → (⟨S1100000x1, .f32⟩ : BufTy).Contents (Elt F)),
    unary main_v58 main_v59 (broadcastInDim S1100000x64 ![0, 1] bcast_S1100000x1_S1100000x64_0_1 : (⟨S1100000x1, .f32⟩ : BufTy).Contents (Elt F) → (⟨S1100000x64, .f32⟩ : BufTy).Contents (Elt F)),
    binary main_v57 main_v59 main_v60 (mulf : (⟨S1100000x64, .f32⟩ : BufTy).Contents (Elt F) → (⟨S1100000x64, .f32⟩ : BufTy).Contents (Elt F) → (⟨S1100000x64, .f32⟩ : BufTy).Contents (Elt F)),
    nullary main_cst_12 (constant S_ .f32 0x00000000#32),
    unary main_cst_12 main_v61 (broadcastInDim S100000x64 ![] bcast_S_S100000x64 : (⟨S_, .f32⟩ : BufTy).Contents (Elt F) → (⟨S100000x64, .f32⟩ : BufTy).Contents (Elt F)),
    unary main_v6 main_v62 (broadcastInDim S1100000x1 ![0] bcast_S1100000_S1100000x1_0 : (⟨S1100000, .i32⟩ : BufTy).Contents (Elt F) → (⟨S1100000x1, .i32⟩ : BufTy).Contents (Elt F)),
    ternary main_v61 main_v62 main_v60 main_v63 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)),
    unary main_arg6 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v63 main_v65 main_v66 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v66) (TRef.of (T := ⟨S100000x64, .f32⟩) main_call2_v0) (TRef.of (T := ⟨S100000x64, .f32⟩) main_v67) maximumf,
    binary main_v67 main_arg7 main_v68 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg8 main_v69 (broadcastInDim S1x1 ![1] bcast_S1_S1x1_1 : (⟨S1, .f32⟩ : BufTy).Contents (Elt F) → (⟨S1x1, .f32⟩ : BufTy).Contents (Elt F)),
    unary main_v69 main_v70 (broadcastInDim S100000x1 ![0, 1] bcast_S1x1_S100000x1_0_1 : (⟨S1x1, .f32⟩ : BufTy).Contents (Elt F) → (⟨S100000x1, .f32⟩ : BufTy).Contents (Elt F)),
    binary main_v68 main_v70 main_v71 (addf : (⟨S100000x1, .f32⟩ : BufTy).Contents (Elt F) → (⟨S100000x1, .f32⟩ : BufTy).Contents (Elt F) → (⟨S100000x1, .f32⟩ : BufTy).Contents (Elt F)),
    binary main_v67 main_arg9 main_v72 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg10 main_v73 (broadcastInDim S1x1 ![1] bcast_S1_S1x1_1 : (⟨S1, .f32⟩ : BufTy).Contents (Elt F) → (⟨S1x1, .f32⟩ : BufTy).Contents (Elt F)),
    unary main_v73 main_v74 (broadcastInDim S100000x1 ![0, 1] bcast_S1x1_S100000x1_0_1 : (⟨S1x1, .f32⟩ : BufTy).Contents (Elt F) → (⟨S100000x1, .f32⟩ : BufTy).Contents (Elt F)),
    binary main_v72 main_v74 main_v75 (addf : (⟨S100000x1, .f32⟩ : BufTy).Contents (Elt F) → (⟨S100000x1, .f32⟩ : BufTy).Contents (Elt F) → (⟨S100000x1, .f32⟩ : BufTy).Contents (Elt F)),
    unary main_v75 main_v76 (Host.negf : (⟨S100000x1, .f32⟩ : BufTy).Contents (Elt F) → (⟨S100000x1, .f32⟩ : BufTy).Contents (Elt F)),
    unary main_v76 main_v77 (Host.exp : (⟨S100000x1, .f32⟩ : BufTy).Contents (Elt F) → (⟨S100000x1, .f32⟩ : BufTy).Contents (Elt F)),
    nullary main_cst_13 (constant S_ .f32 0x3F800000#32),
    unary main_cst_13 main_v78 (broadcastInDim S100000x1 ![] bcast_S_S100000x1 : (⟨S_, .f32⟩ : BufTy).Contents (Elt F) → (⟨S100000x1, .f32⟩ : BufTy).Contents (Elt F)),
    binary main_v78 main_v77 main_v79 (addf : (⟨S100000x1, .f32⟩ : BufTy).Contents (Elt F) → (⟨S100000x1, .f32⟩ : BufTy).Contents (Elt F) → (⟨S100000x1, .f32⟩ : BufTy).Contents (Elt F)),
    nullary main_cst_14 (constant S_ .f32 0x3F800000#32),
    unary main_cst_14 main_v80 (broadcastInDim S100000x1 ![] bcast_S_S100000x1 : (⟨S_, .f32⟩ : BufTy).Contents (Elt F) → (⟨S100000x1, .f32⟩ : BufTy).Contents (Elt F)),
    binary main_v80 main_v79 main_v81 (Host.divf : (⟨S100000x1, .f32⟩ : BufTy).Contents (Elt F) → (⟨S100000x1, .f32⟩ : BufTy).Contents (Elt F) → (⟨S100000x1, .f32⟩ : BufTy).Contents (Elt F)),
    binary main_v71 main_v81 main_v82 (mulf : (⟨S100000x1, .f32⟩ : BufTy).Contents (Elt F) → (⟨S100000x1, .f32⟩ : BufTy).Contents (Elt F) → (⟨S100000x1, .f32⟩ : BufTy).Contents (Elt F)),
    unary main_v82 main_v83 (broadcastInDim S100000x64 ![0, 1] bcast_S100000x1_S100000x64_0_1 : (⟨S100000x1, .f32⟩ : BufTy).Contents (Elt F) → (⟨S100000x64, .f32⟩ : BufTy).Contents (Elt F)),
    binary main_v67 main_v83 main_v84 (mulf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x00000000#32),
    unary main_cst_15 main_v85 (broadcastInDim S2048x64 ![] bcast_S_S2048x64 : (⟨S_, .f32⟩ : BufTy).Contents (Elt F) → (⟨S2048x64, .f32⟩ : BufTy).Contents (Elt F)),
    unary main_arg2 main_v86 (broadcastInDim S100000x1 ![0] bcast_S100000_S100000x1_0 : (⟨S100000, .i32⟩ : BufTy).Contents (Elt F) → (⟨S100000x1, .i32⟩ : BufTy).Contents (Elt F)),
    ternary main_v85 main_v86 main_v84 main_v87 ((fun x i u => Host.scatterAdd scatter_S2048x64_S100000x1_S100000x64_1_0_0_1 x i u) : (⟨S2048x64, .f32⟩ : BufTy).Contents (Elt F) → (⟨S100000x1, .i32⟩ : BufTy).Contents (Elt F) → (⟨S100000x64, .f32⟩ : BufTy).Contents (Elt F) → (⟨S2048x64, .f32⟩ : BufTy).Contents (Elt F)),
    binary main_v87 main_arg11 main_v88 ((fun l r => Host.dotGeneral dot_S2048x64_S64x1_S2048x1_1_0_0_1_n_n none l r) : (⟨S2048x64, .f32⟩ : BufTy).Contents (Elt F) → (⟨S64x1, .f32⟩ : BufTy).Contents (Elt F) → (⟨S2048x1, .f32⟩ : BufTy).Contents (Elt F)),
    unary main_arg12 main_v89 (broadcastInDim S1x1 ![1] bcast_S1_S1x1_1 : (⟨S1, .f32⟩ : BufTy).Contents (Elt F) → (⟨S1x1, .f32⟩ : BufTy).Contents (Elt F)),
    unary main_v89 main_v90 (broadcastInDim S2048x1 ![0, 1] bcast_S1x1_S2048x1_0_1 : (⟨S1x1, .f32⟩ : BufTy).Contents (Elt F) → (⟨S2048x1, .f32⟩ : BufTy).Contents (Elt F)),
    binary main_v88 main_v90 main_v91 (addf : (⟨S2048x1, .f32⟩ : BufTy).Contents (Elt F) → (⟨S2048x1, .f32⟩ : BufTy).Contents (Elt F) → (⟨S2048x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩

set_option maxRecDepth 8192 in
set_option maxHeartbeats 46400000 in
/-- The fold of the operations over a memory, read at the result buffer, is the network of the argument arrays. -/
theorem result_eq (m : (ℓ : Loc nD τ sig) → Buf (Elt F) ℓ) (c : Dev nD) :
    after (ops (F := F)) (launchContents m c) (Proc.devRef .tc main_v91)
      = Stages.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  after_results_simp
  rfl

set_option maxRecDepth 8192 in
set_option maxHeartbeats 46400000 in
/-- On every device, from any memory with zero counters: every weakly fair execution of the reference terminates
    with the result buffer at the network of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = Stages.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v91).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq defs main (fun _ => ops) main_eq (fun _ => ops_sub) m ρ)

end Cert.ReferenceIdeal.HandRun

end
-- ==== Proof.lean ====
/-
  The certificate's five claims.

  The kernel is a two-layer graph convolution with a gated pooling and a linear read-out.  Its dense stages — the
  two feature projections, the two bias-and-clamp steps, the gated scoring of the rows, the final projection — run
  as six tiled regions, and the irregular stages (the edge gathers and the scatter-sums over target nodes and over
  graphs) as the same host operations the reference uses.  Over the extended reals a tile of a dense stage computes
  exactly the entries of the dense stage it covers: a matrix product accumulates the same finite sum of products
  whatever the tiling, a sum along the lanes of a row is the dot product the reference contracts, a change of float
  format is the identity, and the logistic function is by definition 1 / (1 + exp (−s)).  So after each region the
  array it leaves is the reference's dense stage of the same operands, and the two programs end with the same
  array: the network of the thirteen arguments.  No law that could fail at an infinity is used, so finiteness of the
  inputs is never opened.

  The three frame claims are the generated frames of the two kernel programs and the reference's run with its
  result dropped; the idealization rewrote nothing, so there is nothing to preserve.
-/
import proofs.«176435_j26233660244215_1_alg».proof.Defs
import proofs.«176435_j26233660244215_1_alg».proof.Proof.Gen.Kernel
import proofs.«176435_j26233660244215_1_alg».proof.Proof.Gen.Kernel.Skeleton
import proofs.«176435_j26233660244215_1_alg».proof.Proof.Gen.Kernel.Launch
import proofs.«176435_j26233660244215_1_alg».proof.Proof.Gen.Kernel.Points
import proofs.«176435_j26233660244215_1_alg».proof.Proof.Gen.Kernel.Frame
import proofs.«176435_j26233660244215_1_alg».proof.Proof.Gen.KernelIdeal
import proofs.«176435_j26233660244215_1_alg».proof.Proof.Gen.KernelIdeal.Skeleton
import proofs.«176435_j26233660244215_1_alg».proof.Proof.Gen.KernelIdeal.Launch
import proofs.«176435_j26233660244215_1_alg».proof.Proof.Gen.KernelIdeal.Points
import proofs.«176435_j26233660244215_1_alg».proof.Proof.Gen.KernelIdeal.Frame
import proofs.«176435_j26233660244215_1_alg».proof.Proof.Gen.ReferenceIdeal
import proofs.«176435_j26233660244215_1_alg».proof.Proof.Gen.Pre_finite_inputs
import proofs.«176435_j26233660244215_1_alg».proof.Proof.MainRun
import proofs.«176435_j26233660244215_1_alg».proof.Proof.KChain
import proofs.«176435_j26233660244215_1_alg».proof.Proof.RefRun
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- At the ideal values both programs end with the network of the arguments in their result buffers: the kernel
    boundary by boundary through its six regions, the reference by folding its operations; from memories that
    agree on the arguments these are one array. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Chain.result m ρ c), (h c).2⟩)
      (Cert.KernelIdeal.Whole.run_result (F := Ideal) m ρ), ?_⟩
  refine (θ_run Cert.ReferenceIdeal.defs _ _).mono (fun r h c => ⟨(h c).1.trans ?_, (h c).2⟩)
    (Cert.ReferenceIdeal.HandRun.run (F := Ideal) m' ρ')
  obtain ⟨h0, h1, h2, h3, h4, h5, h6, h7, h8, h9, h10, h11, h12⟩ := hagree c
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
